-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x4 : Shape := ⟨2, ![262144, 4]⟩
abbrev S_ : Shape := ⟨0, ![]⟩
abbrev S4x128 : Shape := ⟨2, ![4, 128]⟩
abbrev S128 : Shape := ⟨1, ![128]⟩
abbrev S5x128x128 : Shape := ⟨3, ![5, 128, 128]⟩
abbrev S5x128 : Shape := ⟨2, ![5, 128]⟩
abbrev S128x2 : Shape := ⟨2, ![128, 2]⟩
abbrev S2 : Shape := ⟨1, ![2]⟩

class Facts : Prop where
  bcast_S_S262144x4 : S_.BroadcastsInDim S262144x4 (![] : Fin 0 → Fin S262144x4.rank)
  reducesTo_S262144x4_S_d0_1 : S262144x4.ReducesTo [0, 1] S_
  h_S_ : 0 < S_.numel
  reducesTo_S_S_d : S_.ReducesTo [] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg1 : FVec F S_ .f32) (main_arg2 : FVec F S_ .f32) (main_arg8 : FVec F S2 .f32) (main_v31 : IVec S_ 1) (main_v32 : FVec F S128x2 .f32) (main_cst_12 : FVec F S_ .f32) : IVec S_ 1 :=
  let main_v33 : FVec F S128x2 .f32 := broadcastInDim S128x2 ![] bcast_S_S128x2 main_cst_12
  let main_v34 : IVec S128x2 1 := cmpf .olt main_v32 main_v33
  let main_c_13 : IVec S_ 1 := constantI S_ 1 1#1
  let main_v35 : IVec S_ 1 := (fun x v => Host.reduce IntOp.andi x v reducesTo_S128x2_S_d0_1 h_S_) main_v34 main_c_13
  let main_v36 : IVec S_ 1 := andi main_v31 main_v35
  let main_v37 : FVec F S2 .f32 := Host.absf main_arg8
  let main_cst_14 : FVec F S_ .f32 := constant S_ .f32 0x7F800000#32
  let main_v38 : FVec F S2 .f32 := broadcastInDim S2 ![] bcast_S_S2 main_cst_14
  let main_v39 : IVec S2 1 := cmpf .olt main_v37 main_v38
  let main_c_15 : IVec S_ 1 := constantI S_ 1 1#1
  let main_v40 : IVec S_ 1 := (fun x v => Host.reduce IntOp.andi x v reducesTo_S2_S_d0 h_S_) main_v39 main_c_15
  let main_v41 : IVec S_ 1 := andi main_v36 main_v40
  let main_v42 : IVec S_ 1 := cmpf .une main_arg2 main_arg1
  let main_v43 : IVec S_ 1 := andi main_v41 main_v42
  main_v43

def fn_part1 {F : FTy → Type} [FloatOps F] (main_arg1 : FVec F S_ .f32) (main_arg2 : FVec F S_ .f32) (main_arg4 : FVec F S128 .f32) (main_arg5 : FVec F S5x128x128 .f32) (main_arg6 : FVec F S5x128 .f32) (main_arg7 : FVec F S128x2 .f32) (main_arg8 : FVec F S2 .f32) (main_v11 : IVec S_ 1) (main_v15 : IVec S_ 1) : IVec S_ 1 :=
  let main_v16 : IVec S_ 1 := andi main_v11 main_v15
  let main_v17 : FVec F S128 .f32 := Host.absf main_arg4
  let main_cst_6 : FVec F S_ .f32 := constant S_ .f32 0x7F800000#32
  let main_v18 : FVec F S128 .f32 := broadcastInDim S128 ![] bcast_S_S128 main_cst_6
  let main_v19 : IVec S128 1 := cmpf .olt main_v17 main_v18
  let main_c_7 : IVec S_ 1 := constantI S_ 1 1#1
  let main_v20 : IVec S_ 1 := (fun x v => Host.reduce IntOp.andi x v reducesTo_S128_S_d0 h_S_) main_v19 main_c_7
  let main_v21 : IVec S_ 1 := andi main_v16 main_v20
  let main_v22 : FVec F S5x128x128 .f32 := Host.absf main_arg5
  let main_cst_8 : FVec F S_ .f32 := constant S_ .f32 0x7F800000#32
  let main_v23 : FVec F S5x128x128 .f32 := broadcastInDim S5x128x128 ![] bcast_S_S5x128x128 main_cst_8
  let main_v24 : IVec S5x128x128 1 := cmpf .olt main_v22 main_v23
  let main_c_9 : IVec S_ 1 := constantI S_ 1 1#1
  let main_v25 : IVec S_ 1 := (fun x v => Host.reduce IntOp.andi x v reducesTo_S5x128x128_S_d0_1_2 h_S_) main_v24 main_c_9
  let main_v26 : IVec S_ 1 := andi main_v21 main_v25
  let main_v27 : FVec F S5x128 .f32 := Host.absf main_arg6
  let main_cst_10 : FVec F S_ .f32 := constant S_ .f32 0x7F800000#32
  let main_v28 : FVec F S5x128 .f32 := broadcastInDim S5x128 ![] bcast_S_S5x128 main_cst_10
  let main_v29 : IVec S5x128 1 := cmpf .olt main_v27 main_v28
  let main_c_11 : IVec S_ 1 := constantI S_ 1 1#1
  let main_v30 : IVec S_ 1 := (fun x v => Host.reduce IntOp.andi x v reducesTo_S5x128_S_d0_1 h_S_) main_v29 main_c_11
  let main_v31 : IVec S_ 1 := andi main_v26 main_v30
  let main_v32 : FVec F S128x2 .f32 := Host.absf main_arg7
  let main_cst_12 : FVec F S_ .f32 := constant S_ .f32 0x7F800000#32
  fn_part2 (F := F) main_arg1 main_arg2 main_arg8 main_v31 main_v32 main_cst_12

def fn {F : FTy → Type} [FloatOps F] (main_arg0 : FVec F S262144x4 .f32) (main_arg1 : FVec F S_ .f32) (main_arg2 : FVec F S_ .f32) (main_arg3 : FVec F S4x128 .f32) (main_arg4 : FVec F S128 .f32) (main_arg5 : FVec F S5x128x128 .f32) (main_arg6 : FVec F S5x128 .f32) (main_arg7 : FVec F S128x2 .f32) (main_arg8 : FVec F S2 .f32) : IVec S_ 1 :=
  let main_v0 : FVec F S262144x4 .f32 := Host.absf main_arg0
  let main_cst : FVec F S_ .f32 := constant S_ .f32 0x7F800000#32
  let main_v1 : FVec F S262144x4 .f32 := broadcastInDim S262144x4 ![] bcast_S_S262144x4 main_cst
  let main_v2 : IVec S262144x4 1 := cmpf .olt main_v0 main_v1
  let main_c : IVec S_ 1 := constantI S_ 1 1#1
  let main_v3 : IVec S_ 1 := (fun x v => Host.reduce IntOp.andi x v reducesTo_S262144x4_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg2
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  let main_v12 : FVec F S4x128 .f32 := Host.absf main_arg3
  let main_cst_4 : FVec F S_ .f32 := constant S_ .f32 0x7F800000#32
  let main_v13 : FVec F S4x128 .f32 := broadcastInDim S4x128 ![] bcast_S_S4x128 main_cst_4
  let main_v14 : IVec S4x128 1 := cmpf .olt main_v12 main_v13
  let main_c_5 : IVec S_ 1 := constantI S_ 1 1#1
  let main_v15 : IVec S_ 1 := (fun x v => Host.reduce IntOp.andi x v reducesTo_S4x128_S_d0_1 h_S_) main_v14 main_c_5
  fn_part1 (F := F) main_arg1 main_arg2 main_arg4 main_arg5 main_arg6 main_arg7 main_arg8 main_v11 main_v15
-- ==== Kernel.lean ====
abbrev S262144x4 : Shape := ⟨2, ![262144, 4]⟩
abbrev S_ : Shape := ⟨0, ![]⟩
abbrev S4x128 : Shape := ⟨2, ![4, 128]⟩
abbrev S128 : Shape := ⟨1, ![128]⟩
abbrev S5x128x128 : Shape := ⟨3, ![5, 128, 128]⟩
abbrev S5x128 : Shape := ⟨2, ![5, 128]⟩
abbrev S128x2 : Shape := ⟨2, ![128, 2]⟩
abbrev S2 : Shape := ⟨1, ![2]⟩
abbrev S3 : Shape := ⟨1, ![3]⟩
abbrev S1 : Shape := ⟨1, ![1]⟩
abbrev S4 : Shape := ⟨1, ![4]⟩
abbrev S262144x2 : Shape := ⟨2, ![262144, 2]⟩
abbrev S4096x4 : Shape := ⟨2, ![4096, 4]⟩
abbrev S4096x2 : Shape := ⟨2, ![4096, 2]⟩
abbrev S1x4 : Shape := ⟨2, ![1, 4]⟩
abbrev S4096x128 : Shape := ⟨2, ![4096, 128]⟩
abbrev S1x128 : Shape := ⟨2, ![1, 128]⟩
abbrev S1x128x128 : Shape := ⟨3, ![1, 128, 128]⟩
abbrev S128x128 : Shape := ⟨2, ![128, 128]⟩
abbrev S1x2 : Shape := ⟨2, ![1, 2]⟩

abbrev nBuf : Space → Nat
  | .hbm => 27
  | .vmem => 12
  | .smem => 0
  | _ => 0

abbrev bufTy : (tb : Table) → Fin (tcTables nBuf tb) → BufTy
  | .hbm, ⟨0, _⟩ => ⟨S262144x4, .f32⟩
  | .hbm, ⟨1, _⟩ => ⟨S_, .f32⟩
  | .hbm, ⟨2, _⟩ => ⟨S_, .f32⟩
  | .hbm, ⟨3, _⟩ => ⟨S4x128, .f32⟩
  | .hbm, ⟨4, _⟩ => ⟨S128, .f32⟩
  | .hbm, ⟨5, _⟩ => ⟨S5x128x128, .f32⟩
  | .hbm, ⟨6, _⟩ => ⟨S5x128, .f32⟩
  | .hbm, ⟨7, _⟩ => ⟨S128x2, .f32⟩
  | .hbm, ⟨8, _⟩ => ⟨S2, .f32⟩
  | .hbm, ⟨9, _⟩ => ⟨S3, .f32⟩
  | .hbm, ⟨10, _⟩ => ⟨S3, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S4, .f32⟩
  | .hbm, ⟨22, _⟩ => ⟨S4, .f32⟩
  | .hbm, ⟨23, _⟩ => ⟨S4x128, .bf16⟩
  | .hbm, ⟨24, _⟩ => ⟨S5x128x128, .bf16⟩
  | .hbm, ⟨25, _⟩ => ⟨S128x2, .bf16⟩
  | .hbm, ⟨26, _⟩ => ⟨S262144x2, .f32⟩
  | .local _ .vmem, ⟨0, _⟩ => ⟨S4096x4, .f32⟩
  | .local _ .vmem, ⟨1, _⟩ => ⟨S4096x4, .f32⟩
  | .local _ .vmem, ⟨2, _⟩ => ⟨S4, .f32⟩
  | .local _ .vmem, ⟨3, _⟩ => ⟨S4, .f32⟩
  | .local _ .vmem, ⟨4, _⟩ => ⟨S4x128, .bf16⟩
  | .local _ .vmem, ⟨5, _⟩ => ⟨S128, .f32⟩
  | .local _ .vmem, ⟨6, _⟩ => ⟨S5x128x128, .bf16⟩
  | .local _ .vmem, ⟨7, _⟩ => ⟨S5x128, .f32⟩
  | .local _ .vmem, ⟨8, _⟩ => ⟨S128x2, .bf16⟩
  | .local _ .vmem, ⟨9, _⟩ => ⟨S2, .f32⟩
  | .local _ .vmem, ⟨10, _⟩ => ⟨S4096x2, .f32⟩
  | .local _ .vmem, ⟨11, _⟩ => ⟨S4096x2, .f32⟩
  | _, _ => ⟨S262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_cst_1 : Ref sig .tc := ⟨.hbm, 12, rfl⟩
abbrev main_v1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_v4 : Ref sig .tc := ⟨.hbm, 17, rfl⟩
abbrev main_cst_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S_S1 : S_.ShapeCasts S1
  concatenates_S3_S1_S4_d0 : Shape.Concatenates [S3, S1] S4 0
  bitsLt_bf16_f32 : FTy.bits .bf16 < FTy.bits .f32
  inb_S4096x4_S4096x4_0_0 : ∀ a, (![0, 0] : Fin 2 → Nat) a + S4096x4.size a ≤ S4096x4.size a
  h_S4096x4 : 0 < S4096x4.numel
  inb_S4_S4_0 : ∀ a, (![0] : Fin 1 → Nat) a + S4.size a ≤ S4.size a
  h_S4 : 0 < S4.numel
  shapeCasts_S4_S4 : S4.ShapeCasts S4
  shapeCasts_S4_S1x4 : S4.ShapeCasts S1x4
  broadcasts_S1x4_S4096x4 : S1x4.Broadcasts S4096x4
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  inb_S5x128_S1x128_0_0 : ∀ a, (![0, 0] : Fin 2 → Nat) a + S1x128.size a ≤ S5x128.size a
  h_S1x128 : 0 < S1x128.numel
  shapeCasts_S1x128_S128 : S1x128.ShapeCasts S128
  inb_S5x128x128_S1x128x128_1_0_0 : ∀ a, (![1, 0, 0] : Fin 3 → Nat) a + S1x128x128.size a ≤ S5x128x128.size a
  inb_S5x128_S1x128_1_0 : ∀ a, (![1, 0] : Fin 2 → Nat) a + S1x128.size a ≤ S5x128.size a
  inb_S5x128x128_S1x128x128_2_0_0 : ∀ a, (![2, 0, 0] : Fin 3 → Nat) a + S1x128x128.size a ≤ S5x128x128.size a
  inb_S5x128_S1x128_2_0 : ∀ a, (![2, 0] : Fin 2 → Nat) a + S1x128.size a ≤ S5x128.size a
  inb_S5x128x128_S1x128x128_3_0_0 : ∀ a, (![3, 0, 0] : Fin 3 → Nat) a + S1x128x128.size a ≤ S5x128x128.size a
  inb_S5x128_S1x128_3_0 : ∀ a, (![3, 0] : Fin 2 → Nat) a + S1x128.size a ≤ S5x128.size a
  inb_S5x128x128_S1x128x128_4_0_0 : ∀ a, (![4, 0, 0] : Fin 3 → Nat) a + S1x128x128.size a ≤ S5x128x128.size a
  inb_S5x128_S1x128_4_0 : ∀ a, (![4, 0] : Fin 2 → Nat) a + S1x128.size a ≤ S5x128.size a
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2_S2_0 : ∀ a, (![0] : Fin 1 → Nat) a + S2.size a ≤ S2.size a
  h_S2 : 0 < S2.numel
  shapeCasts_S2_S1x2 : S2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  dot_S4096x4_S4x128_S4096x128_1_0_0_1_n_n_wf : DotDims.WF S4096x4 S4x128 S4096x128 [1] [0] [0] [1] [] []
  dot_S4096x128_S128x128_S4096x128_1_0_0_1_n_n_wf : DotDims.WF S4096x128 S128x128 S4096x128 [1] [0] [0] [1] [] []
  dot_S4096x128_S128x2_S4096x2_1_0_0_1_n_n_wf : DotDims.WF S4096x128 S128x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S262144x4.size a
  hwx0_0 : ∀ i : grid0.Coords, EltTy.bits .f32 = 32 ∨ (Rect.block (s := S262144x4) S4096x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4.size a ≤ S4.size a
  hwx0_1 : ∀ i : grid0.Coords, EltTy.bits .f32 = 32 ∨ (Rect.block (s := S4) S4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .bf16 = 32 ∨ (Rect.block (s := S4x128) S4x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128x128.size a ≤ S5x128x128.size a
  hwx0_5 : ∀ i : grid0.Coords, EltTy.bits .bf16 = 32 ∨ (Rect.block (s := S5x128x128) S5x128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x128.size a ≤ S5x128.size a
  hwx0_6 : ∀ i : grid0.Coords, EltTy.bits .f32 = 32 ∨ (Rect.block (s := S5x128) S5x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x2.size a ≤ S128x2.size a
  hwx0_7 : ∀ i : grid0.Coords, EltTy.bits .bf16 = 32 ∨ (Rect.block (s := S128x2) S128x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2.size a ≤ S2.size a
  hwx0_8 : ∀ i : grid0.Coords, EltTy.bits .f32 = 32 ∨ (Rect.block (s := S2) S2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x2.size a ≤ S262144x2.size a
  hwx0_9 : ∀ i : grid0.Coords, EltTy.bits .f32 = 32 ∨ (Rect.block (s := S262144x2) S4096x2.size (cc0_transform_9 i) (hinb0_9 i)).WholeWords (EltTy.packing .f32)

variable [Facts₀]

def dot_S4096x4_S4x128_S4096x128_1_0_0_1_n_n : DotDims S4096x4 S4x128 S4096x128 where
  lhsContracting := [1]
  rhsContracting := [0]
  lhsNonContracting := [0]
  rhsNonContracting := [1]
  lhsBatch := []
  rhsBatch := []
  wf := dot_S4096x4_S4x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S5x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S5x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S128x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S4096x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x4 : Shape := ⟨2, ![262144, 4]⟩
abbrev S_ : Shape := ⟨0, ![]⟩
abbrev S4x128 : Shape := ⟨2, ![4, 128]⟩
abbrev S128 : Shape := ⟨1, ![128]⟩
abbrev S5x128x128 : Shape := ⟨3, ![5, 128, 128]⟩
abbrev S5x128 : Shape := ⟨2, ![5, 128]⟩
abbrev S128x2 : Shape := ⟨2, ![128, 2]⟩
abbrev S2 : Shape := ⟨1, ![2]⟩
abbrev S262144x1 : Shape := ⟨2, ![262144, 1]⟩
abbrev S262144x128 : Shape := ⟨2, ![262144, 128]⟩
abbrev S1x128 : Shape := ⟨2, ![1, 128]⟩
abbrev S1x128x128 : Shape := ⟨3, ![1, 128, 128]⟩
abbrev S128x128 : Shape := ⟨2, ![128, 128]⟩
abbrev S262144x2 : Shape := ⟨2, ![262144, 2]⟩
abbrev S1x2 : Shape := ⟨2, ![1, 2]⟩

abbrev nBuf : Space → Nat
  | .hbm => 163
  | .vmem => 0
  | .smem => 0
  | _ => 0

abbrev hbmTy0_0 (i : Nat) : BufTy := match i % 128 with
  | 0 => ⟨S262144x4, .f32⟩
  | 1 => ⟨S_, .f32⟩
  | 2 => ⟨S_, .f32⟩
  | 3 => ⟨S4x128, .f32⟩
  | 4 => ⟨S128, .f32⟩
  | 5 => ⟨S5x128x128, .f32⟩
  | 6 => ⟨S5x128, .f32⟩
  | 7 => ⟨S128x2, .f32⟩
  | 8 => ⟨S2, .f32⟩
  | 9 => ⟨S262144x1, .f32⟩
  | 10 => ⟨S_, .f32⟩
  | 11 => ⟨S262144x1, .f32⟩
  | 12 => ⟨S262144x1, .f32⟩
  | 13 => ⟨S_, .f32⟩
  | 14 => ⟨S262144x1, .f32⟩
  | 15 => ⟨S262144x1, .f32⟩
  | 16 => ⟨S_, .f32⟩
  | 17 => ⟨S262144x1, .f32⟩
  | 18 => ⟨S262144x1, .f32⟩
  | 19 => ⟨S_, .f32⟩
  | 20 => ⟨S262144x1, .f32⟩
  | 21 => ⟨S262144x1, .f32⟩
  | 22 => ⟨S262144x1, .f32⟩
  | 23 => ⟨S_, .f32⟩
  | 24 => ⟨S262144x1, .f32⟩
  | 25 => ⟨S262144x1, .f32⟩
  | 26 => ⟨S_, .f32⟩
  | 27 => ⟨S262144x1, .f32⟩
  | 28 => ⟨S262144x1, .f32⟩
  | 29 => ⟨S_, .f32⟩
  | 30 => ⟨S262144x1, .f32⟩
  | 31 => ⟨S262144x1, .f32⟩
  | 32 => ⟨S_, .f32⟩
  | 33 => ⟨S262144x1, .f32⟩
  | 34 => ⟨S262144x1, .f32⟩
  | 35 => ⟨S262144x1, .f32⟩
  | 36 => ⟨S_, .f32⟩
  | 37 => ⟨S262144x1, .f32⟩
  | 38 => ⟨S262144x1, .f32⟩
  | 39 => ⟨S_, .f32⟩
  | 40 => ⟨S262144x1, .f32⟩
  | 41 => ⟨S262144x1, .f32⟩
  | 42 => ⟨S_, .f32⟩
  | 43 => ⟨S262144x1, .f32⟩
  | 44 => ⟨S262144x1, .f32⟩
  | 45 => ⟨S_, .f32⟩
  | 46 => ⟨S262144x1, .f32⟩
  | 47 => ⟨S262144x1, .f32⟩
  | 48 => ⟨S262144x1, .f32⟩
  | 49 => ⟨S262144x1, .f32⟩
  | 50 => ⟨S262144x1, .f32⟩
  | 51 => ⟨S_, .f32⟩
  | 52 => ⟨S262144x1, .f32⟩
  | 53 => ⟨S262144x1, .f32⟩
  | 54 => ⟨S_, .f32⟩
  | 55 => ⟨S262144x1, .f32⟩
  | 56 => ⟨S262144x1, .f32⟩
  | 57 => ⟨S_, .f32⟩
  | 58 => ⟨S262144x1, .f32⟩
  | 59 => ⟨S262144x1, .f32⟩
  | 60 => ⟨S262144x4, .f32⟩
  | 61 => ⟨S262144x128, .f32⟩
  | 62 => ⟨S1x128, .f32⟩
  | 63 => ⟨S262144x128, .f32⟩
  | 64 => ⟨S262144x128, .f32⟩
  | 65 => ⟨S262144x128, .f32⟩
  | 66 => ⟨S262144x128, .f32⟩
  | 67 => ⟨S_, .f32⟩
  | 68 => ⟨S262144x128, .f32⟩
  | 69 => ⟨S262144x128, .f32⟩
  | 70 => ⟨S_, .f32⟩
  | 71 => ⟨S262144x128, .f32⟩
  | 72 => ⟨S262144x128, .f32⟩
  | 73 => ⟨S262144x128, .f32⟩
  | 74 => ⟨S1x128x128, .f32⟩
  | 75 => ⟨S128x128, .f32⟩
  | 76 => ⟨S262144x128, .f32⟩
  | 77 => ⟨S1x128, .f32⟩
  | 78 => ⟨S128, .f32⟩
  | 79 => ⟨S1x128, .f32⟩
  | 80 => ⟨S262144x128, .f32⟩
  | 81 => ⟨S262144x128, .f32⟩
  | 82 => ⟨S262144x128, .f32⟩
  | 83 => ⟨S262144x128, .f32⟩
  | 84 => ⟨S_, .f32⟩
  | 85 => ⟨S262144x128, .f32⟩
  | 86 => ⟨S262144x128, .f32⟩
  | 87 => ⟨S_, .f32⟩
  | 88 => ⟨S262144x128, .f32⟩
  | 89 => ⟨S262144x128, .f32⟩
  | 90 => ⟨S262144x128, .f32⟩
  | 91 => ⟨S1x128x128, .f32⟩
  | 92 => ⟨S128x128, .f32⟩
  | 93 => ⟨S262144x128, .f32⟩
  | 94 => ⟨S1x128, .f32⟩
  | 95 => ⟨S128, .f32⟩
  | 96 => ⟨S1x128, .f32⟩
  | 97 => ⟨S262144x128, .f32⟩
  | 98 => ⟨S262144x128, .f32⟩
  | 99 => ⟨S262144x128, .f32⟩
  | 100 => ⟨S262144x128, .f32⟩
  | 101 => ⟨S_, .f32⟩
  | 102 => ⟨S262144x128, .f32⟩
  | 103 => ⟨S262144x128, .f32⟩
  | 104 => ⟨S_, .f32⟩
  | 105 => ⟨S262144x128, .f32⟩
  | 106 => ⟨S262144x128, .f32⟩
  | 107 => ⟨S262144x128, .f32⟩
  | 108 => ⟨S1x128x128, .f32⟩
  | 109 => ⟨S128x128, .f32⟩
  | 110 => ⟨S262144x128, .f32⟩
  | 111 => ⟨S1x128, .f32⟩
  | 112 => ⟨S128, .f32⟩
  | 113 => ⟨S1x128, .f32⟩
  | 114 => ⟨S262144x128, .f32⟩
  | 115 => ⟨S262144x128, .f32⟩
  | 116 => ⟨S262144x128, .f32⟩
  | 117 => ⟨S262144x128, .f32⟩
  | 118 => ⟨S_, .f32⟩
  | 119 => ⟨S262144x128, .f32⟩
  | 120 => ⟨S262144x128, .f32⟩
  | 121 => ⟨S_, .f32⟩
  | 122 => ⟨S262144x128, .f32⟩
  | 123 => ⟨S262144x128, .f32⟩
  | 124 => ⟨S262144x128, .f32⟩
  | 125 => ⟨S1x128x128, .f32⟩
  | 126 => ⟨S128x128, .f32⟩
  | 127 => ⟨S262144x128, .f32⟩
  | _ => ⟨S262144x4, .f32⟩

abbrev hbmTy0_1 (i : Nat) : BufTy := match i % 128 with
  | 0 => ⟨S1x128, .f32⟩
  | 1 => ⟨S128, .f32⟩
  | 2 => ⟨S1x128, .f32⟩
  | 3 => ⟨S262144x128, .f32⟩
  | 4 => ⟨S262144x128, .f32⟩
  | 5 => ⟨S262144x128, .f32⟩
  | 6 => ⟨S262144x128, .f32⟩
  | 7 => ⟨S_, .f32⟩
  | 8 => ⟨S262144x128, .f32⟩
  | 9 => ⟨S262144x128, .f32⟩
  | 10 => ⟨S_, .f32⟩
  | 11 => ⟨S262144x128, .f32⟩
  | 12 => ⟨S262144x128, .f32⟩
  | 13 => ⟨S262144x128, .f32⟩
  | 14 => ⟨S1x128x128, .f32⟩
  | 15 => ⟨S128x128, .f32⟩
  | 16 => ⟨S262144x128, .f32⟩
  | 17 => ⟨S1x128, .f32⟩
  | 18 => ⟨S128, .f32⟩
  | 19 => ⟨S1x128, .f32⟩
  | 20 => ⟨S262144x128, .f32⟩
  | 21 => ⟨S262144x128, .f32⟩
  | 22 => ⟨S262144x128, .f32⟩
  | 23 => ⟨S262144x128, .f32⟩
  | 24 => ⟨S_, .f32⟩
  | 25 => ⟨S262144x128, .f32⟩
  | 26 => ⟨S262144x128, .f32⟩
  | 27 => ⟨S_, .f32⟩
  | 28 => ⟨S262144x128, .f32⟩
  | 29 => ⟨S262144x128, .f32⟩
  | 30 => ⟨S262144x128, .f32⟩
  | 31 => ⟨S262144x2, .f32⟩
  | 32 => ⟨S1x2, .f32⟩
  | 33 => ⟨S262144x2, .f32⟩
  | 34 => ⟨S262144x2, .f32⟩
  | _ => ⟨S262144x4, .f32⟩

abbrev hbmTy (i : Nat) : BufTy := match i / 128 with
  | 0 => hbmTy0_0 i
  | 1 => hbmTy0_1 i
  | _ => ⟨S262144x4, .f32⟩

abbrev bufTy : (tb : Table) → Fin (tcTables nBuf tb) → BufTy
  | .hbm, ⟨i, _⟩ => hbmTy i
  | _, _ => ⟨S262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_7 : Ref sig .tc := ⟨.hbm, 36, rfl⟩
abbrev main_v19 : Ref sig .tc := ⟨.hbm, 37, rfl⟩
abbrev main_v20 : Ref sig .tc := ⟨.hbm, 38, rfl⟩
abbrev main_cst_8 : Ref sig .tc := ⟨.hbm, 39, rfl⟩
abbrev main_v21 : Ref sig .tc := ⟨.hbm, 40, rfl⟩
abbrev main_v22 : Ref sig .tc := ⟨.hbm, 41, rfl⟩
abbrev main_cst_9 : Ref sig .tc := ⟨.hbm, 42, rfl⟩
abbrev main_v23 : Ref sig .tc := ⟨.hbm, 43, rfl⟩
abbrev main_v24 : Ref sig .tc := ⟨.hbm, 44, rfl⟩
abbrev main_cst_10 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_11 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_12 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_13 : Ref sig .tc := ⟨.hbm, 67, rfl⟩
abbrev main_v44 : Ref sig .tc := ⟨.hbm, 68, rfl⟩
abbrev main_v45 : Ref sig .tc := ⟨.hbm, 69, rfl⟩
abbrev main_cst_14 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_15 : Ref sig .tc := ⟨.hbm, 84, rfl⟩
abbrev main_v59 : Ref sig .tc := ⟨.hbm, 85, rfl⟩
abbrev main_v60 : Ref sig .tc := ⟨.hbm, 86, rfl⟩
abbrev main_cst_16 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_17 : Ref sig .tc := ⟨.hbm, 101, rfl⟩
abbrev main_v74 : Ref sig .tc := ⟨.hbm, 102, rfl⟩
abbrev main_v75 : Ref sig .tc := ⟨.hbm, 103, rfl⟩
abbrev main_cst_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_19 : Ref sig .tc := ⟨.hbm, 118, rfl⟩
abbrev main_v89 : Ref sig .tc := ⟨.hbm, 119, rfl⟩
abbrev main_v90 : Ref sig .tc := ⟨.hbm, 120, rfl⟩
abbrev main_cst_20 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_21 : Ref sig .tc := ⟨.hbm, 135, rfl⟩
abbrev main_v104 : Ref sig .tc := ⟨.hbm, 136, rfl⟩
abbrev main_v105 : Ref sig .tc := ⟨.hbm, 137, rfl⟩
abbrev main_cst_22 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_23 : Ref sig .tc := ⟨.hbm, 152, rfl⟩
abbrev main_v119 : Ref sig .tc := ⟨.hbm, 153, rfl⟩
abbrev main_v120 : Ref sig .tc := ⟨.hbm, 154, rfl⟩
abbrev main_cst_24 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩

abbrev nD : Nat := 1
abbrev τ : Topo := Topo.v7x

variable {F : FTy → Type} [FloatOps F]

class Facts₀ : Prop where
  slices_S262144x4_S262144x1_0_0 : S262144x4.Slices ![0, 0] S262144x1
  bcast_S_S262144x1 : S_.BroadcastsInDim S262144x1 (![] : Fin 0 → Fin S262144x1.rank)
  slices_S262144x4_S262144x1_0_1 : S262144x4.Slices ![0, 1] S262144x1
  slices_S262144x4_S262144x1_0_2 : S262144x4.Slices ![0, 2] S262144x1
  slices_S262144x4_S262144x1_0_3 : S262144x4.Slices ![0, 3] S262144x1
  concatenates_S262144x1_S262144x1_S262144x1_S262144x1_S262144x4_d1 : Shape.Concatenates [S262144x1, S262144x1, S262144x1, S262144x1] S262144x4 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  dot_S262144x4_S4x128_S262144x128_1_0_0_1_n_n_wf : DotDims.WF S262144x4 S4x128 S262144x128 [1] [0] [0] [1] [] []
  dot_S262144x128_S128x128_S262144x128_1_0_0_1_n_n_wf : DotDims.WF S262144x128 S128x128 S262144x128 [1] [0] [0] [1] [] []
  dot_S262144x128_S128x2_S262144x2_1_0_0_1_n_n_wf : DotDims.WF S262144x128 S128x2 S262144x2 [1] [0] [0] [1] [] []

variable [Facts₀]

def dot_S262144x4_S4x128_S262144x128_1_0_0_1_n_n : DotDims S262144x4 S4x128 S262144x128 where
  lhsContracting := [1]
  rhsContracting := [0]
  lhsNonContracting := [0]
  rhsNonContracting := [1]
  lhsBatch := []
  rhsBatch := []
  wf := dot_S262144x4_S4x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x2_S262144x2_1_0_0_1_n_n : DotDims S262144x128 S128x2 S262144x2 where
  lhsContracting := [1]
  rhsContracting := [0]
  lhsNonContracting := [0]
  rhsNonContracting := [1]
  lhsBatch := []
  rhsBatch := []
  wf := dot_S262144x128_S128x2_S262144x2_1_0_0_1_n_n_wf

class Facts : Prop extends Facts₀ where

variable [Facts]
-- ==== Proof.Mlp.lean ====
/-
  The network both programs compute, on the extended reals, one row of points at a time.

  A row of four raw features is rescaled to [-1, 1] column by column, then passed through a dense layer of
  width 128 with the swish activation z * logistic z, five more such layers, and a last dense layer of width 2
  with no activation.  A dense layer of a row h is  j |-> (sum over k of h k * W k j) + b j.

  The two programs differ only in how they spell the rescaling.  One computes, per column,
  2 * (x - lo) / (hi - lo) - 1 with the column's bounds; the other multiplies by a precomputed scale
  2 / (hi - lo) and adds a precomputed offset -2 * lo / (hi - lo) - 1.  For the first three columns the bounds
  are the numbers -1, 1 and 0, 1; for the fourth they are two inputs a and b.  The two spellings agree when
  every number involved is a real number and b differs from a: this is the law proved here (featR_eq_featK).
  On the extended reals it fails without those hypotheses: with b = a the quotient by zero is an infinity
  or the junk value, and x * top + bottom is not 2 * (x - a) / 0 - 1.
-/
import Idealize.ShloMosaic.Lib.ValueIdx
import Idealize.ShloMosaic.Lib.IdealHost
import Idealize.ShloMosaic.PureOps.Ideal.Laws

noncomputable section

open scoped BigOperators

namespace Cert.Mlp

open Idealize.ShloMosaic Idealize.ShloMosaic.ValueIdx

/-- The swish activation on the extended reals. -/
def swish (z : EReal) : EReal := z * Ideal.logistic z

/-- A dense layer on one row. -/
def dense {K N : Nat} (h : Fin K → EReal) (W : Fin K → Fin N → EReal) (b : Fin N → EReal) : Fin N → EReal :=
  fun j => (∑ k : Fin K, h k * W k j) + b j

/-- The activation applied to a row. -/
def act {N : Nat} (z : Fin N → EReal) : Fin N → EReal := fun k => swish (z k)

/-- Row p of a rank-2 array. -/
def row {M N : Nat} (v : (⟨2, ![M, N]⟩ : Shape).Idx → EReal) (p : Fin M) : Fin N → EReal := fun k => v (ix2 p k)

/-- A rank-2 array as a function of its two coordinates. -/
def mat {K N : Nat} (w : (⟨2, ![K, N]⟩ : Shape).Idx → EReal) : Fin K → Fin N → EReal := fun k j => w (ix2 k j)

/-- A rank-1 array as a function of its coordinate. -/
def vec {N : Nat} (b : (⟨1, ![N]⟩ : Shape).Idx → EReal) : Fin N → EReal := fun j => b (ix1 j)

/-- Hidden layer i: the activation, then the dense layer with slab i of the stacked weights and row i of the
    stacked biases. -/
def hid (Wh : (⟨3, ![5, 128, 128]⟩ : Shape).Idx → EReal) (bh : (⟨2, ![5, 128]⟩ : Shape).Idx → EReal) (i : Fin 5)
    (z : Fin 128 → EReal) : Fin 128 → EReal :=
  dense (act z) (fun k j => Wh (ix3 i k j)) (fun j => bh (ix2 i j))

/-- The whole network on one row of rescaled features. -/
def net (f : Fin 4 → EReal) (W0 : (⟨2, ![4, 128]⟩ : Shape).Idx → EReal) (b0 : (⟨1, ![128]⟩ : Shape).Idx → EReal)
    (Wh : (⟨3, ![5, 128, 128]⟩ : Shape).Idx → EReal) (bh : (⟨2, ![5, 128]⟩ : Shape).Idx → EReal)
    (WL : (⟨2, ![128, 2]⟩ : Shape).Idx → EReal) (bL : (⟨1, ![2]⟩ : Shape).Idx → EReal) : Fin 2 → EReal :=
  dense (act (hid Wh bh 4 (hid Wh bh 3 (hid Wh bh 2 (hid Wh bh 1 (hid Wh bh 0 (dense f (mat W0) (vec b0)))))))) (mat WL) (vec bL)

/-- The words 2.0, -1.0 and -2.0 as extended reals. -/
abbrev c2 : EReal := ((2 : ℝ) : EReal)
abbrev cm1 : EReal := ((-1 : ℝ) : EReal)
abbrev cm2 : EReal := ((-2 : ℝ) : EReal)

theorem ofBits_two : Ideal.ofBits .f32 0x40000000#32 = c2 := by
  simp [Ideal.ofBits, Ideal.ieee, -EReal.coe_mul]; norm_num

theorem ofBits_neg_one : Ideal.ofBits .f32 0xBF800000#32 = cm1 := by
  simp [Ideal.ofBits, Ideal.ieee, -EReal.coe_mul]; norm_num

theorem ofBits_neg_two : Ideal.ofBits .f32 0xC0000000#32 = cm2 := by
  simp [Ideal.ofBits, Ideal.ieee, -EReal.coe_mul]; norm_num

/-- The rescaled features, each column by its own quotient. -/
def featR (x : Fin 4 → EReal) (a b : EReal) : Fin 4 → EReal :=
  ![Ideal.div (c2 * (x 0 - cm1)) c2 - 1, Ideal.div (c2 * (x 1 - cm1)) c2 - 1, Ideal.div (c2 * (x 2 - 0)) 1 - 1,
    Ideal.div (c2 * (x 3 - a)) (b - a) - 1]

/-- The precomputed scale and offset vectors. -/
def scaleK (a b : EReal) : Fin 4 → EReal := ![1, 1, c2, Ideal.div c2 (b - a)]
def offsetK (a b : EReal) : Fin 4 → EReal := ![0, 0, cm1, Ideal.div (cm2 * a) (b - a) - 1]

/-- The rescaled features by the precomputed scale and offset. -/
def featK (x : Fin 4 → EReal) (a b : EReal) : Fin 4 → EReal := fun k => x k * scaleK a b k + offsetK a b k

/-- The two spellings of the rescaling agree on real numbers when the fourth column's bounds differ. -/
theorem featR_eq_featK (x : Fin 4 → EReal) (a b : EReal) (hx : ∀ k, ∃ r : ℝ, x k = (r : EReal))
    (ha : ∃ r : ℝ, a = (r : EReal)) (hb : ∃ r : ℝ, b = (r : EReal)) (hne : b ≠ a) : featR x a b = featK x a b := by
  obtain ⟨α, rfl⟩ := ha
  obtain ⟨β, rfl⟩ := hb
  obtain ⟨x0, h0⟩ := hx 0
  obtain ⟨x1, h1⟩ := hx 1
  obtain ⟨x2, h2⟩ := hx 2
  obtain ⟨x3, h3⟩ := hx 3
  have hd : β - α ≠ 0 := fun h => hne (by rw [sub_eq_zero.mp h])
  have e2 : (2 : ℝ) ≠ 0 := two_ne_zero
  have e1 : (1 : ℝ) ≠ 0 := one_ne_zero
  funext k
  fin_cases k
  · show Ideal.div (c2 * (x 0 - cm1)) c2 - 1 = x 0 * 1 + 0
    rw [h0, Ideal.div_coe e2, ← EReal.coe_sub, ← EReal.coe_mul, ← EReal.coe_mul, ← EReal.coe_one, ← EReal.coe_sub, ← EReal.coe_mul,
      ← EReal.coe_zero, ← EReal.coe_add]
    congr 1; ring
  · show Ideal.div (c2 * (x 1 - cm1)) c2 - 1 = x 1 * 1 + 0
    rw [h1, Ideal.div_coe e2, ← EReal.coe_sub, ← EReal.coe_mul, ← EReal.coe_mul, ← EReal.coe_one, ← EReal.coe_sub, ← EReal.coe_mul,
      ← EReal.coe_zero, ← EReal.coe_add]
    congr 1; ring
  · show Ideal.div (c2 * (x 2 - 0)) 1 - 1 = x 2 * c2 + cm1
    rw [h2, ← EReal.coe_one, Ideal.div_coe e1, ← EReal.coe_zero, ← EReal.coe_sub, ← EReal.coe_mul, ← EReal.coe_mul, ← EReal.coe_sub,
      ← EReal.coe_mul, ← EReal.coe_add]
    congr 1; ring
  · show Ideal.div (c2 * (x 3 - (α : EReal))) ((β : EReal) - (α : EReal)) - 1
      = x 3 * Ideal.div c2 ((β : EReal) - (α : EReal)) + (Ideal.div (cm2 * (α : EReal)) ((β : EReal) - (α : EReal)) - 1)
    rw [h3, ← EReal.coe_sub β α, Ideal.div_coe hd, Ideal.div_coe hd, Ideal.div_coe hd, ← EReal.coe_one]
    simp only [← EReal.coe_sub, ← EReal.coe_mul, ← EReal.coe_add]
    congr 1; field_simp; ring

end Cert.Mlp

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.LibDenseRow.lean ====
/-
  General lemmas: a dense layer, and the swish activation, read one row at a time.

  For an M x K array h, a K x N array w and a bias row, "h times w plus the bias broadcast down the rows" is
  spelled in two ways: with a matrix product into a zero accumulator and a broadcast of a [1, N] row (the vector
  unit's operations), or with a host dot_general and two broadcast_in_dim steps from a length-N vector.  Read at
  row p, both are the dense layer of row p of h (Cert.Mlp.dense).  Likewise z * logistic z and
  z * (1 / (1 + exp (-z))) with host operations are, on row p, the activation of row p (Cert.Mlp.act): on the
  extended reals logistic z is by definition 1 / (1 + exp (-z)).
  Also the small index lemmas the layers' operands need: a [1, a, b] slab of a [n, a, b] array, cut out by a unit
  rectangle or by a host slice, then cast to [a, b]; a [1, b] row of an [n, b] array likewise.
-/
import proofs.«142799_j89146341195842_1_alg».proof.Proof.Mlp
import proofs.«142799_j89146341195842_1_alg».proof.Proof.LibPlainDot
import Idealize.ShloMosaic.Lib.Pipeline.Value
import Idealize.ShloMosaic.Lib.ValueLayout
import Idealize.ShloMosaic.Lib.IdealHost

noncomputable section

open scoped BigOperators

namespace Cert.Lib.DenseRow

open Idealize.ShloMosaic Idealize.ShloMosaic.ValueIdx Cert.Mlp

/-- The dense layer with the vector unit's operations, on row p. -/
theorem matmul_bias_row {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (h : FVec Ideal (⟨2, ![M, K]⟩ : Shape) φ₁) (w : FVec Ideal (⟨2, ![K, N]⟩ : Shape) φ₂)
    (brow : (⟨2, ![1, N]⟩ : Shape).Idx → EReal) (hb : (⟨2, ![1, N]⟩ : Shape).Broadcasts ⟨2, ![M, N]⟩) (p : Fin M) :
    row (addf (φ := .f32) (FloatOps.matmul D prec h w (constant (⟨2, ![M, N]⟩ : Shape) .f32 0x00000000#32))
        (broadcastTo (⟨2, ![M, N]⟩ : Shape) brow hb)) p
      = dense (row h p) (mat w) (fun j => brow (ix2 (0 : Fin 1) j)) := by
  funext j
  show FloatOps.matmul D prec h w (constant (⟨2, ![M, N]⟩ : Shape) .f32 0x00000000#32) (ix2 p j)
      + broadcastTo (⟨2, ![M, N]⟩ : Shape) brow hb (ix2 p j) = _
  rw [Cert.Lib.PlainDot.matmul_zero_apply D hr hs l0 l1 r0 r1, broadcastTo_1b_ab_apply]
  rfl

/-- The dense layer with the host's operations, on row p. -/
theorem dotGeneral_bias_row {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (h : FVec Ideal (⟨2, ![M, K]⟩ : Shape) φ₁) (w : FVec Ideal (⟨2, ![K, N]⟩ : Shape) φ₂)
    (b : (⟨1, ![N]⟩ : Shape).Idx → EReal)
    (hb1 : (⟨1, ![N]⟩ : Shape).BroadcastsInDim (⟨2, ![1, N]⟩ : Shape) ![1])
    (hb2 : (⟨2, ![1, N]⟩ : Shape).BroadcastsInDim (⟨2, ![M, N]⟩ : Shape) ![0, 1]) (p : Fin M) :
    row (addf (φ := .f32) (Host.dotGeneral D prec h w)
        (broadcastInDim (⟨2, ![M, N]⟩ : Shape) ![0, 1] hb2 (broadcastInDim (⟨2, ![1, N]⟩ : Shape) ![1] hb1 b))) p
      = dense (row h p) (mat w) (vec b) := by
  funext j
  show FloatOps.dotGeneral D prec .single h w (ix2 p j)
      + broadcastInDim (⟨2, ![M, N]⟩ : Shape) ![0, 1] hb2 (broadcastInDim (⟨2, ![1, N]⟩ : Shape) ![1] hb1 b) (ix2 p j) = _
  rw [Cert.Lib.PlainDot.dotGeneral_apply D hr hs l0 l1 r0 r1,
    broadcastInDim_apply ![0, 1] hb2 _ (ix2 p j) (ix2 (0 : Fin 1) j) (fun a => by
      match a with
      | ⟨0, _⟩ => rfl
      | ⟨1, _⟩ =>
        show j.val = if N = 1 then 0 else j.val
        split
        · have := j.isLt; omega
        · rfl),
    broadcastInDim_apply ![1] hb1 _ (ix2 (0 : Fin 1) j) (ix1 j) (fun a => by
      match a with
      | ⟨0, _⟩ =>
        show j.val = if N = 1 then 0 else j.val
        split
        · have := j.isLt; omega
        · rfl)]
  rfl

/-- The activation spelled z * logistic z, after a change of format, on row p. -/
theorem swish_row {M N : Nat} {ψ : FTy} (z : FVec Ideal (⟨2, ![M, N]⟩ : Shape) .f32) (hlt : ψ.bits < FTy.bits .f32) (p : Fin M) :
    row (truncf ψ (mulf z (logistic z)) hlt) p = act (row z p) := rfl

/-- The activation spelled z * (1 / (1 + exp (-z))) with the host's operations, on row p. -/
theorem hostSwish_row {M N : Nat} (z : FVec Ideal (⟨2, ![M, N]⟩ : Shape) .f32)
    (h1 h2 : (⟨0, ![]⟩ : Shape).BroadcastsInDim (⟨2, ![M, N]⟩ : Shape) ![]) (p : Fin M) :
    row (mulf z (Host.divf (broadcastInDim (⟨2, ![M, N]⟩ : Shape) ![] h1 (constant (F := Ideal) (⟨0, ![]⟩ : Shape) .f32 0x3F800000#32))
        (addf (broadcastInDim (⟨2, ![M, N]⟩ : Shape) ![] h2 (constant (F := Ideal) (⟨0, ![]⟩ : Shape) .f32 0x3F800000#32))
          (Host.exp (Host.negf z))))) p = act (row z p) := by
  funext k
  show z (ix2 p k) * Ideal.div (Ideal.ofBits .f32 0x3F800000#32) (Ideal.ofBits .f32 0x3F800000#32 + Ideal.exp (-(z (ix2 p k)))) = _
  rw [Ideal.ofBits_one_f32]
  rfl

/-! ## Slabs and rows of stacked parameters -/

section Slabs
variable {Val : EltTy → Type} {e : EltTy} {α : Type}

/-- Slab i of an [n, a, b] array, loaded through the unit-stride rectangle at offset (i, 0, 0) of extents (1, a, b). -/
theorem ld_slab_apply {n a b : Nat} (X : (⟨3, ![n, a, b]⟩ : Shape).Idx → Val e) (i : Fin n) (off : Fin 3 → Nat)
    (hoff : off = ![i.val, 0, 0]) (inb : ∀ ax, off ax + (![1, a, b] : Fin 3 → Nat) ax ≤ (⟨3, ![n, a, b]⟩ : Shape).size ax)
    (u : Fin 1) (k : Fin a) (j : Fin b) :
    View.ld X (Rect.unit (s := (⟨3, ![n, a, b]⟩ : Shape)) off ![1, a, b] inb) (ix3 u k j) = X (ix3 i k j) := by
  subst hoff
  refine congrArg X (funext fun ax => Fin.ext ?_)
  show (Rect.unit (s := (⟨3, ![n, a, b]⟩ : Shape)) ![i.val, 0, 0] ![1, a, b] inb).off ax
      + (Rect.unit (s := (⟨3, ![n, a, b]⟩ : Shape)) ![i.val, 0, 0] ![1, a, b] inb).stride ax * ((ix3 u k j) ax).val = _
  match ax with
  | ⟨0, _⟩ => show i.val + 1 * u.val = i.val; omega
  | ⟨1, _⟩ => show 0 + 1 * k.val = k.val; omega
  | ⟨2, _⟩ => show 0 + 1 * j.val = j.val; omega

/-- Row i of an [n, b] array, loaded through the unit-stride rectangle at offset (i, 0) of extents (1, b). -/
theorem ld_rowslab_apply {n b : Nat} (X : (⟨2, ![n, b]⟩ : Shape).Idx → Val e) (i : Fin n) (off : Fin 2 → Nat)
    (hoff : off = ![i.val, 0]) (inb : ∀ ax, off ax + (![1, b] : Fin 2 → Nat) ax ≤ (⟨2, ![n, b]⟩ : Shape).size ax)
    (u : Fin 1) (j : Fin b) :
    View.ld X (Rect.unit (s := (⟨2, ![n, b]⟩ : Shape)) off ![1, b] inb) (ix2 u j) = X (ix2 i j) := by
  subst hoff
  refine congrArg X (funext fun ax => Fin.ext ?_)
  show (Rect.unit (s := (⟨2, ![n, b]⟩ : Shape)) ![i.val, 0] ![1, b] inb).off ax
      + (Rect.unit (s := (⟨2, ![n, b]⟩ : Shape)) ![i.val, 0] ![1, b] inb).stride ax * ((ix2 u j) ax).val = _
  match ax with
  | ⟨0, _⟩ => show i.val + 1 * u.val = i.val; omega
  | ⟨1, _⟩ => show 0 + 1 * j.val = j.val; omega

/-- Slab i of an [n, a, b] array cut out by a host slice at offset (i, 0, 0). -/
theorem slice_slab_apply {n a b : Nat} (X : (⟨3, ![n, a, b]⟩ : Shape).Idx → α) (i : Fin n) (off : Fin 3 → Nat)
    (hoff : off = ![i.val, 0, 0]) (h : (⟨3, ![n, a, b]⟩ : Shape).Slices off ⟨3, ![1, a, b]⟩) (u : Fin 1) (k : Fin a) (j : Fin b) :
    extractStridedSlice ⟨3, ![1, a, b]⟩ off X h (ix3 u k j) = X (ix3 i k j) := by
  subst hoff
  refine extractStridedSlice_apply _ X h (ix3 u k j) (ix3 i k j) fun ax => ?_
  match ax with
  | ⟨0, _⟩ => show i.val = i.val + u.val; omega
  | ⟨1, _⟩ => show k.val = 0 + k.val; omega
  | ⟨2, _⟩ => show j.val = 0 + j.val; omega

/-- Row i of an [n, b] array cut out by a host slice at offset (i, 0). -/
theorem slice_rowslab_apply {n b : Nat} (X : (⟨2, ![n, b]⟩ : Shape).Idx → α) (i : Fin n) (off : Fin 2 → Nat)
    (hoff : off = ![i.val, 0]) (h : (⟨2, ![n, b]⟩ : Shape).Slices off ⟨2, ![1, b]⟩) (u : Fin 1) (j : Fin b) :
    extractStridedSlice ⟨2, ![1, b]⟩ off X h (ix2 u j) = X (ix2 i j) := by
  subst hoff
  refine extractStridedSlice_apply _ X h (ix2 u j) (ix2 i j) fun ax => ?_
  match ax with
  | ⟨0, _⟩ => show i.val = i.val + u.val; omega
  | ⟨1, _⟩ => show j.val = 0 + j.val; omega

end Slabs

end Cert.Lib.DenseRow

end
-- ==== Proof.KernelRow.lean ====
/-
  What the kernel body leaves in its output block, one row at a time.

  The body loads a block of 4096 rows of raw features, the scale and offset vectors, and every weight and bias
  whole; it computes x * scale + offset, then seven matrix products with a bias each, the swish activation
  between them; it stores the [4096, 2] result through one whole-block store.  Read at row p of the block, the
  stored value is the network (Cert.Mlp.net) applied to row p of the features block rescaled by the scale and
  offset vectors: each layer is one application of the row lemmas for a matrix product with a broadcast bias
  and for the activation.
-/
import proofs.«142799_j89146341195842_1_alg».proof.Proof.Gen.KernelIdeal.Frame
import proofs.«142799_j89146341195842_1_alg».proof.Proof.LibDenseRow

noncomputable section

open scoped BigOperators

namespace Cert.KernelIdeal.Rows

open Cert.KernelIdeal Cert.KernelIdeal.Gen Idealize.ShloMosaic Idealize.ShloMosaic.ValueIdx Cert.Mlp Cert.Lib.DenseRow

theorem hz2 : (![0, 0] : Fin 2 → Nat) = fun _ => 0 := funext fun a => by fin_cases a <;> rfl
theorem hz1 : (![0] : Fin 1 → Nat) = fun _ => 0 := funext fun a => by fin_cases a <;> rfl

/-- The rescaled features of row p of the block, after the change of format. -/
theorem feat_row (x0 : FVec Ideal S4096x4 .f32) (s o : FVec Ideal S4 .f32) (h1 : S4.ShapeCasts S4) (h2 : S4.ShapeCasts S1x4)
    (h3 : S1x4.Broadcasts S4096x4) (hlt : FTy.bits .bf16 < FTy.bits .f32) (p : Fin 4096) :
    row (truncf .bf16 (addf (mulf x0 (broadcastTo S4096x4 (shapeCast S1x4 (shapeCast S4 s h1) h2) h3))
        (broadcastTo S4096x4 (shapeCast S1x4 (shapeCast S4 o h1) h2) h3)) hlt) p
      = fun k => x0 (ix2 p k) * s (ix1 k) + o (ix1 k) := by
  funext k
  show x0 (ix2 p k) * broadcastTo S4096x4 (shapeCast S1x4 (shapeCast S4 s h1) h2) h3 (ix2 p k)
      + broadcastTo S4096x4 (shapeCast S1x4 (shapeCast S4 o h1) h2) h3 (ix2 p k) = _
  rw [broadcastTo_1b_ab_apply, broadcastTo_1b_ab_apply, shapeCast_a_1a_apply, shapeCast_a_1a_apply, shapeCast_self, shapeCast_self]

/-- The first layer: the features against the [4, 128] weights, plus the bias. -/
theorem first_row (h : FVec Ideal S4096x4 .bf16) (w : FVec Ideal S4x128 .bf16) (b : FVec Ideal S128 .f32)
    (hc : S4x128.ShapeCasts S4x128) (hc1 : S128.ShapeCasts S1x128) (hb : S1x128.Broadcasts S4096x128) (p : Fin 4096)
    (f : Fin 4 → EReal) (hf : row h p = f) :
    row (addf (φ := .f32) (FloatOps.matmul dot_S4096x4_S4x128_S4096x128_1_0_0_1_n_n none h (shapeCast S4x128 w hc)
        (constant S4096x128 .f32 0x00000000#32)) (broadcastTo S4096x128 (shapeCast S1x128 b hc1) hb)) p
      = dense f (mat w) (vec b) := by
  refine (matmul_bias_row dot_S4096x4_S4x128_S4096x128_1_0_0_1_n_n rfl rfl (fun _ _ => rfl) (fun _ _ => rfl) (fun _ _ => rfl)
    (fun _ _ => rfl) none h (shapeCast S4x128 w hc) (shapeCast S1x128 b hc1) hb p).trans ?_
  rw [hf, shapeCast_self]
  refine congrArg (dense f (mat w)) (funext fun j => ?_)
  exact shapeCast_a_1a_apply b hc1 0 j

/-- A hidden layer: the activation of the previous layer's row against slab i of the stacked weights, plus row i
    of the stacked biases. -/
theorem hid_row (z : FVec Ideal S4096x128 .f32) (x5 : Vec Ideal S5x128x128 .bf16) (x6 : Vec Ideal S5x128 .f32) (i : Fin 5)
    (offw : Fin 3 → Nat) (hw : offw = ![i.val, 0, 0]) (inbw : ∀ a, offw a + S1x128x128.size a ≤ S5x128x128.size a)
    (offb : Fin 2 → Nat) (hb : offb = ![i.val, 0]) (inbb : ∀ a, offb a + S1x128.size a ≤ S5x128.size a)
    (hlt : FTy.bits .bf16 < FTy.bits .f32) (hc : S1x128x128.ShapeCasts S128x128) (hc1 : S1x128.ShapeCasts S128)
    (hc2 : S128.ShapeCasts S1x128) (hbr : S1x128.Broadcasts S4096x128) (p : Fin 4096)
    (f : Fin 128 → EReal) (hf : row z p = f) :
    row (addf (φ := .f32) (FloatOps.matmul dot_S4096x128_S128x128_S4096x128_1_0_0_1_n_n none (truncf .bf16 (mulf z (logistic z)) hlt)
        (shapeCast S128x128 (View.ld x5 (Rect.unit (s := S5x128x128) offw S1x128x128.size inbw)) hc : FVec Ideal S128x128 .bf16)
        (constant S4096x128 .f32 0x00000000#32))
        (broadcastTo S4096x128 (shapeCast S1x128 (shapeCast S128 (View.ld x6 (Rect.unit (s := S5x128) offb S1x128.size inbb)) hc1
          : FVec Ideal S128 .f32) hc2) hbr)) p
      = hid x5 x6 i f := by
  refine (matmul_bias_row dot_S4096x128_S128x128_S4096x128_1_0_0_1_n_n rfl rfl (fun _ _ => rfl) (fun _ _ => rfl) (fun _ _ => rfl)
    (fun _ _ => rfl) none _ _ _ hbr p).trans ?_
  rw [swish_row, hf]
  unfold hid
  refine congrArg₂ (dense (act f)) (funext fun k => funext fun j => ?_) (funext fun j => ?_)
  · show shapeCast S128x128 (View.ld x5 (Rect.unit (s := S5x128x128) offw S1x128x128.size inbw)) hc (ix2 k j) = _
    rw [shapeCast_1ab_ab_apply]
    exact ld_slab_apply x5 i offw hw inbw 0 k j
  · show shapeCast S1x128 (shapeCast S128 (View.ld x6 (Rect.unit (s := S5x128) offb S1x128.size inbb)) hc1) hc2 (ix2 (0 : Fin 1) j) = _
    rw [shapeCast_shapeCast]
    exact ld_rowslab_apply x6 i offb hb inbb 0 j

/-- The last layer: the activation of the previous layer's row against the [128, 2] weights, plus the bias. -/
theorem last_row (z : FVec Ideal S4096x128 .f32) (w : FVec Ideal S128x2 .bf16) (b : FVec Ideal S2 .f32)
    (hlt : FTy.bits .bf16 < FTy.bits .f32) (hc : S128x2.ShapeCasts S128x2) (hc1 : S2.ShapeCasts S1x2)
    (hb : S1x2.Broadcasts S4096x2) (p : Fin 4096) (f : Fin 128 → EReal) (hf : row z p = f) :
    row (addf (φ := .f32) (FloatOps.matmul dot_S4096x128_S128x2_S4096x2_1_0_0_1_n_n none (truncf .bf16 (mulf z (logistic z)) hlt)
        (shapeCast S128x2 w hc) (constant S4096x2 .f32 0x00000000#32)) (broadcastTo S4096x2 (shapeCast S1x2 b hc1) hb)) p
      = dense (act f) (mat w) (vec b) := by
  refine (matmul_bias_row dot_S4096x128_S128x2_S4096x2_1_0_0_1_n_n rfl rfl (fun _ _ => rfl) (fun _ _ => rfl) (fun _ _ => rfl)
    (fun _ _ => rfl) none _ _ _ hb p).trans ?_
  rw [swish_row, hf, shapeCast_self]
  refine congrArg (dense (act f) (mat w)) (funext fun j => ?_)
  exact shapeCast_a_1a_apply b hc1 0 j

/-- Row p of what the body stores: the network on the rescaled features of row p. -/
theorem out_row (x0 : Vec Ideal S4096x4 .f32) (x1 x2 : Vec Ideal S4 .f32) (x3 : Vec Ideal S4x128 .bf16) (x4 : Vec Ideal S128 .f32)
    (x5 : Vec Ideal S5x128x128 .bf16) (x6 : Vec Ideal S5x128 .f32) (x7 : Vec Ideal S128x2 .bf16) (x8 : Vec Ideal S2 .f32)
    (p : Fin 4096) :
    row (out0_9 x0 x1 x2 x3 x4 x5 x6 x7 x8) p
      = net (fun k => x0 (ix2 p k) * x1 (ix1 k) + x2 (ix1 k)) x3 x4 x5 x6 x7 x8 := by
  unfold out0_9
  rw [View.canon_unit_zero hz2]
  simp only [View.ld_unit_zero (S := S4096x4) hz2, View.ld_unit_zero (S := S4) hz1, View.ld_unit_zero (S := S4x128) hz2,
    View.ld_unit_zero (S := S128) hz1, View.ld_unit_zero (S := S128x2) hz2, View.ld_unit_zero (S := S2) hz1]
  unfold k0_pay1 k0_pay4 k0_pay2 k0_pay3 k0_pay5 net
  refine last_row _ x7 x8 _ _ _ _ p _ ?_
  refine hid_row _ x5 x6 4 _ rfl _ _ rfl _ _ _ _ _ _ p _ ?_
  refine hid_row _ x5 x6 3 _ rfl _ _ rfl _ _ _ _ _ _ p _ ?_
  refine hid_row _ x5 x6 2 _ rfl _ _ rfl _ _ _ _ _ _ p _ ?_
  refine hid_row _ x5 x6 1 _ rfl _ _ rfl _ _ _ _ _ _ p _ ?_
  refine hid_row _ x5 x6 0 _ rfl _ _ rfl _ _ _ _ _ _ p _ ?_
  refine first_row _ x3 x4 _ _ _ p _ ?_
  exact feat_row x0 x1 x2 _ _ _ _ p

end Cert.KernelIdeal.Rows

end
-- ==== Proof.KernelValue.lean ====
/-
  The kernel's result array as one function of its argument arrays.

  The grid has 64 points; point t stages rows 4096 t .. 4096 t + 4095 of the features and of the result, and every
  other operand whole.  The scale and offset vectors are computed before the launch from the two bound
  inputs a and b: scale = (1, 1, 2, 2 / (b - a)), offset = (0, 0, -1, (-2 * a) / (b - a) - 1); the weights are
  passed through a change of format, the identity on the extended reals.  So point t writes back rows
  4096 t .. of the array G whose row r is the network on the features of row r rescaled by scale and offset
  (Cert.Mlp.featK), the 64 blocks cover the result, and the result array ends as G.
-/
import proofs.«142799_j89146341195842_1_alg».proof.Proof.Gen.KernelIdeal.Value
import proofs.«142799_j89146341195842_1_alg».proof.Proof.KernelRow

noncomputable section

open Idealize.ShloMosaic Idealize.ShloMosaic.TcCoe Idealize.SL.Sem
open Idealize.ShloMosaic.Pipeline (Dat)

namespace Cert.KernelIdeal.MlpValue

open Cert.KernelIdeal Cert.KernelIdeal.Gen Cert.KernelIdeal.Value Idealize.ShloMosaic.ValueIdx Cert.Mlp Cert.Lib.DenseRow

variable (m : (ℓ : Loc nD τ sig) → Buf (Elt Ideal) ℓ) (ρ : Dev nD → PrngReg)

/-- The two bound inputs, as extended reals. -/
abbrev lo (c : Dev nD) : EReal := (m ((c : Thread nD τ).loc main_arg1) : S_.Idx → EReal) ix0
abbrev hi (c : Dev nD) : EReal := (m ((c : Thread nD τ).loc main_arg2) : S_.Idx → EReal) ix0

/-- The result array: row r is the network on row r of the features, rescaled by the scale and offset vectors. -/
def G (c : Dev nD) : S262144x2.Idx → EReal := fun i =>
  net (featK (row (m ((c : Thread nD τ).loc main_arg0) : S262144x4.Idx → EReal) (i 0)) (lo m c) (hi m c))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 1)

/-! ## The arrays the region finds -/

/-- The scale vector. -/
theorem V_scale (c : Dev nD) (k : Fin 4) : (V m c main_v7 : S4.Idx → EReal) (ix1 k) = scaleK (lo m c) (hi m c) k := by
  dsimp only [Gen.V, Gen.hostOps0]
  after_results
  fin_cases k
  · refine (concatenate_pair_apply_left (t := S4) (0 : Fin 1) _ _ concatenates_S3_S1_S4_d0 (ix1 (0 : Fin 4)) rfl
      (ix1 (0 : Fin 3)) (fun b => by match b with | ⟨0, _⟩ => rfl)).trans ?_
    show Ideal.ofBits .f32 0x3F800000#32 = 1
    exact Ideal.ofBits_one_f32
  · refine (concatenate_pair_apply_left (t := S4) (0 : Fin 1) _ _ concatenates_S3_S1_S4_d0 (ix1 (1 : Fin 4)) rfl
      (ix1 (1 : Fin 3)) (fun b => by match b with | ⟨0, _⟩ => rfl)).trans ?_
    show Ideal.ofBits .f32 0x3F800000#32 = 1
    exact Ideal.ofBits_one_f32
  · refine (concatenate_pair_apply_left (t := S4) (0 : Fin 1) _ _ concatenates_S3_S1_S4_d0 (ix1 (2 : Fin 4)) rfl
      (ix1 (2 : Fin 3)) (fun b => by match b with | ⟨0, _⟩ => rfl)).trans ?_
    show Ideal.ofBits .f32 0x40000000#32 = c2
    exact ofBits_two
  · refine (concatenate_pair_apply_right (t := S4) (0 : Fin 1) _ _ concatenates_S3_S1_S4_d0 (ix1 (3 : Fin 4)) rfl rfl
      (ix1 (0 : Fin 1)) (fun b hb => by match b with | ⟨0, _⟩ => exact absurd rfl hb) rfl).trans ?_
    show shapeCast S1 (Host.divf (F := Ideal) (constant (F := Ideal) S_ .f32 0x40000000#32)
      (subf (m ((c : Thread nD τ).loc main_arg2)) (m ((c : Thread nD τ).loc main_arg1)))) shapeCasts_S_S1 (ix1 (0 : Fin 1)) = _
    rw [shapeCast_apply _ shapeCasts_S_S1 (ix1 (0 : Fin 1)) ix0 rfl]
    show Ideal.div (Ideal.ofBits .f32 0x40000000#32) (hi m c - lo m c) = Ideal.div c2 (hi m c - lo m c)
    rw [ofBits_two]

/-- The offset vector. -/
theorem V_offset (c : Dev nD) (k : Fin 4) : (V m c main_v8 : S4.Idx → EReal) (ix1 k) = offsetK (lo m c) (hi m c) k := by
  dsimp only [Gen.V, Gen.hostOps0]
  after_results
  fin_cases k
  · refine (concatenate_pair_apply_left (t := S4) (0 : Fin 1) _ _ concatenates_S3_S1_S4_d0 (ix1 (0 : Fin 4)) rfl
      (ix1 (0 : Fin 3)) (fun b => by match b with | ⟨0, _⟩ => rfl)).trans ?_
    show Ideal.ofBits .f32 0x00000000#32 = 0
    exact Ideal.ofBits_zero_f32
  · refine (concatenate_pair_apply_left (t := S4) (0 : Fin 1) _ _ concatenates_S3_S1_S4_d0 (ix1 (1 : Fin 4)) rfl
      (ix1 (1 : Fin 3)) (fun b => by match b with | ⟨0, _⟩ => rfl)).trans ?_
    show Ideal.ofBits .f32 0x00000000#32 = 0
    exact Ideal.ofBits_zero_f32
  · refine (concatenate_pair_apply_left (t := S4) (0 : Fin 1) _ _ concatenates_S3_S1_S4_d0 (ix1 (2 : Fin 4)) rfl
      (ix1 (2 : Fin 3)) (fun b => by match b with | ⟨0, _⟩ => rfl)).trans ?_
    show Ideal.ofBits .f32 0xBF800000#32 = cm1
    exact ofBits_neg_one
  · refine (concatenate_pair_apply_right (t := S4) (0 : Fin 1) _ _ concatenates_S3_S1_S4_d0 (ix1 (3 : Fin 4)) rfl rfl
      (ix1 (0 : Fin 1)) (fun b hb => by match b with | ⟨0, _⟩ => exact absurd rfl hb) rfl).trans ?_
    show shapeCast S1 (subf (Host.divf (F := Ideal) (mulf (constant (F := Ideal) S_ .f32 0xC0000000#32) (m ((c : Thread nD τ).loc main_arg1)))
      (subf (m ((c : Thread nD τ).loc main_arg2)) (m ((c : Thread nD τ).loc main_arg1)))) (constant (F := Ideal) S_ .f32 0x3F800000#32))
      shapeCasts_S_S1 (ix1 (0 : Fin 1)) = _
    rw [shapeCast_apply _ shapeCasts_S_S1 (ix1 (0 : Fin 1)) ix0 rfl]
    show Ideal.div (Ideal.ofBits .f32 0xC0000000#32 * lo m c) (hi m c - lo m c) - Ideal.ofBits .f32 0x3F800000#32
      = Ideal.div (cm2 * lo m c) (hi m c - lo m c) - 1
    rw [ofBits_neg_two, Ideal.ofBits_one_f32]

/-- The weights pass through a change of format: the identity on the extended reals. -/
theorem V_w0 (c : Dev nD) : (V m c main_v9 : S4x128.Idx → EReal) = m ((c : Thread nD τ).loc main_arg3) := by
  dsimp only [Gen.V, Gen.hostOps0]
  after_results
  rfl

theorem V_wh (c : Dev nD) : (V m c main_v10 : S5x128x128.Idx → EReal) = m ((c : Thread nD τ).loc main_arg5) := by
  dsimp only [Gen.V, Gen.hostOps0]
  after_results
  rfl

theorem V_wl (c : Dev nD) : (V m c main_v11 : S128x2.Idx → EReal) = m ((c : Thread nD τ).loc main_arg7) := by
  dsimp only [Gen.V, Gen.hostOps0]
  after_results
  rfl

/-! ## The windows' blocks -/

/-- The printed index maps, decided over the 64 grid points: the features and the result move with the point
    along the rows; every other operand stays at block 0. -/
theorem idx_facts : ∀ t : Fin cfg0.N, win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- The features block at point t is rows 4096 t .. of the features. -/
theorem blk0 (c : Dev nD) (t : Fin cfg0.N) (p : Fin 4096) (k : Fin 4) (r : Fin 262144) (hr : r.val = 4096 * t.val + p.val) :
    (iblk m c 0 t : Vec Ideal S4096x4 .f32) (ix2 p k) = (m ((c : Thread nD τ).loc main_arg0) : S262144x4.Idx → EReal) (ix2 r k) := by
  obtain ⟨e0, e1, -⟩ := idx_facts t
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 2) * 4096 + 1 * p.val = r.val; rw [e0, hr]; omega
  | ⟨1, _⟩ => show win0_0.index t (1 : Fin 2) * 4 + 1 * k.val = k.val; rw [e1]; omega

/-- Every other operand's block is its whole array. -/
theorem blk1 (c : Dev nD) (t : Fin cfg0.N) : (iblk m c 1 t : Vec Ideal S4 .f32) = V m c main_v7 := by
  obtain ⟨-, -, e, -⟩ := idx_facts t
  funext y
  unfold iblk
  rw [View.read_apply]
  show V m c main_v7 _ = V m c main_v7 y
  refine congrArg (V m c main_v7) (funext fun a => Fin.ext ?_)
  match a with
  | ⟨0, _⟩ => show win0_1.index t (0 : Fin 1) * 4 + 1 * (y 0).val = (y 0).val; rw [e]; omega

theorem blk2 (c : Dev nD) (t : Fin cfg0.N) : (iblk m c 2 t : Vec Ideal S4 .f32) = V m c main_v8 := by
  obtain ⟨-, -, -, e, -⟩ := idx_facts t
  funext y
  unfold iblk
  rw [View.read_apply]
  show V m c main_v8 _ = V m c main_v8 y
  refine congrArg (V m c main_v8) (funext fun a => Fin.ext ?_)
  match a with
  | ⟨0, _⟩ => show win0_2.index t (0 : Fin 1) * 4 + 1 * (y 0).val = (y 0).val; rw [e]; omega

theorem blk3 (c : Dev nD) (t : Fin cfg0.N) : (iblk m c 3 t : Vec Ideal S4x128 .bf16) = V m c main_v9 := by
  obtain ⟨-, -, -, -, e0, e1, -⟩ := idx_facts t
  funext y
  unfold iblk
  rw [View.read_apply]
  show V m c main_v9 _ = V m c main_v9 y
  refine congrArg (V m c main_v9) (funext fun a => Fin.ext ?_)
  match a with
  | ⟨0, _⟩ => show win0_3.index t (0 : Fin 2) * 4 + 1 * (y 0).val = (y 0).val; rw [e0]; omega
  | ⟨1, _⟩ => show win0_3.index t (1 : Fin 2) * 128 + 1 * (y 1).val = (y 1).val; rw [e1]; omega

theorem blk4 (c : Dev nD) (t : Fin cfg0.N) : (iblk m c 4 t : Vec Ideal S128 .f32) = m ((c : Thread nD τ).loc main_arg4) := by
  obtain ⟨-, -, -, -, -, -, e, -⟩ := idx_facts t
  funext y
  unfold iblk
  rw [View.read_apply]
  show V m c main_arg4 _ = m ((c : Thread nD τ).loc main_arg4) y
  rw [V_main_arg4]
  refine congrArg (m ((c : Thread nD τ).loc main_arg4)) (funext fun a => Fin.ext ?_)
  match a with
  | ⟨0, _⟩ => show win0_4.index t (0 : Fin 1) * 128 + 1 * (y 0).val = (y 0).val; rw [e]; omega

theorem blk5 (c : Dev nD) (t : Fin cfg0.N) : (iblk m c 5 t : Vec Ideal S5x128x128 .bf16) = V m c main_v10 := by
  obtain ⟨-, -, -, -, -, -, -, e0, e1, e2, -⟩ := idx_facts t
  funext y
  unfold iblk
  rw [View.read_apply]
  show V m c main_v10 _ = V m c main_v10 y
  refine congrArg (V m c main_v10) (funext fun a => Fin.ext ?_)
  match a with
  | ⟨0, _⟩ => show win0_5.index t (0 : Fin 3) * 5 + 1 * (y 0).val = (y 0).val; rw [e0]; omega
  | ⟨1, _⟩ => show win0_5.index t (1 : Fin 3) * 128 + 1 * (y 1).val = (y 1).val; rw [e1]; omega
  | ⟨2, _⟩ => show win0_5.index t (2 : Fin 3) * 128 + 1 * (y 2).val = (y 2).val; rw [e2]; omega

theorem blk6 (c : Dev nD) (t : Fin cfg0.N) : (iblk m c 6 t : Vec Ideal S5x128 .f32) = m ((c : Thread nD τ).loc main_arg6) := by
  obtain ⟨-, -, -, -, -, -, -, -, -, -, e0, e1, -⟩ := idx_facts t
  funext y
  unfold iblk
  rw [View.read_apply]
  show V m c main_arg6 _ = m ((c : Thread nD τ).loc main_arg6) y
  rw [V_main_arg6]
  refine congrArg (m ((c : Thread nD τ).loc main_arg6)) (funext fun a => Fin.ext ?_)
  match a with
  | ⟨0, _⟩ => show win0_6.index t (0 : Fin 2) * 5 + 1 * (y 0).val = (y 0).val; rw [e0]; omega
  | ⟨1, _⟩ => show win0_6.index t (1 : Fin 2) * 128 + 1 * (y 1).val = (y 1).val; rw [e1]; omega

theorem blk7 (c : Dev nD) (t : Fin cfg0.N) : (iblk m c 7 t : Vec Ideal S128x2 .bf16) = V m c main_v11 := by
  obtain ⟨-, -, -, -, -, -, -, -, -, -, -, -, e0, e1, -⟩ := idx_facts t
  funext y
  unfold iblk
  rw [View.read_apply]
  show V m c main_v11 _ = V m c main_v11 y
  refine congrArg (V m c main_v11) (funext fun a => Fin.ext ?_)
  match a with
  | ⟨0, _⟩ => show win0_7.index t (0 : Fin 2) * 128 + 1 * (y 0).val = (y 0).val; rw [e0]; omega
  | ⟨1, _⟩ => show win0_7.index t (1 : Fin 2) * 2 + 1 * (y 1).val = (y 1).val; rw [e1]; omega

theorem blk8 (c : Dev nD) (t : Fin cfg0.N) : (iblk m c 8 t : Vec Ideal S2 .f32) = m ((c : Thread nD τ).loc main_arg8) := by
  obtain ⟨-, -, -, -, -, -, -, -, -, -, -, -, -, -, e, -⟩ := idx_facts t
  funext y
  unfold iblk
  rw [View.read_apply]
  show V m c main_arg8 _ = m ((c : Thread nD τ).loc main_arg8) y
  rw [V_main_arg8]
  refine congrArg (m ((c : Thread nD τ).loc main_arg8)) (funext fun a => Fin.ext ?_)
  match a with
  | ⟨0, _⟩ => show win0_8.index t (0 : Fin 1) * 2 + 1 * (y 0).val = (y 0).val; rw [e]; omega

/-! ## From blocks to the array -/

/-- The body's stored value at (p, o), from what its input blocks hold: the features block row p as row r of the
    features, the scale and offset vectors, the weights and biases whole. -/
theorem out_of_blocks (X : S262144x4.Idx → EReal) (a b : EReal) (W0 : S4x128.Idx → EReal) (b0 : S128.Idx → EReal)
    (Wh : S5x128x128.Idx → EReal) (bh : S5x128.Idx → EReal) (WL : S128x2.Idx → EReal) (bL : S2.Idx → EReal)
    (x0 : Vec Ideal S4096x4 .f32) (x1 x2 : Vec Ideal S4 .f32) (x3 : Vec Ideal S4x128 .bf16) (x4 : Vec Ideal S128 .f32)
    (x5 : Vec Ideal S5x128x128 .bf16) (x6 : Vec Ideal S5x128 .f32) (x7 : Vec Ideal S128x2 .bf16) (x8 : Vec Ideal S2 .f32)
    (p : Fin 4096) (o : Fin 2) (r : Fin 262144)
    (h0 : ∀ k : Fin 4, x0 (ix2 p k) = X (ix2 r k)) (h1 : ∀ k : Fin 4, x1 (ix1 k) = scaleK a b k)
    (h2 : ∀ k : Fin 4, x2 (ix1 k) = offsetK a b k) (h3 : x3 = W0) (h4 : x4 = b0) (h5 : x5 = Wh) (h6 : x6 = bh)
    (h7 : x7 = WL) (h8 : x8 = bL) :
    out0_9 x0 x1 x2 x3 x4 x5 x6 x7 x8 (ix2 p o) = net (featK (row X r) a b) W0 b0 Wh bh WL bL o := by
  have e := congrFun (Cert.KernelIdeal.Rows.out_row x0 x1 x2 x3 x4 x5 x6 x7 x8 p) o
  unfold row at e
  refine e.trans ?_
  subst h3 h4 h5 h6 h7 h8
  have hf : (fun k : Fin 4 => x0 (ix2 p k) * x1 (ix1 k) + x2 (ix1 k)) = featK (row X r) a b := funext fun k => by
    rw [h0 k, h1 k, h2 k]; rfl
  rw [hf]

/-- WHAT POINT t WRITES BACK: rows 4096 t .. 4096 t + 4095 of G. -/
theorem flushed_eq (c : Dev nD) (t : Fin cfg0.N) :
    (dats m 0 c).flushed 9 t = ((cfg0.win 9).blk t).view.read (Elt Ideal) (G m c) := by
  have hN : cfg0.N = 64 := N_0
  have ht : t.val < 64 := by have := t.isLt; omega
  rw [flushed9]
  funext y
  obtain ⟨p, o, rfl⟩ : ∃ (p : Fin 4096) (o : Fin 2), y = ix2 p o := ⟨y 0, y 1, eq_ix2 y⟩
  have hp : p.val < 4096 := p.isLt
  have hemb : ((cfg0.win 9).blk t).view.emb (ix2 p o) = (ix2 (⟨4096 * t.val + p.val, by omega⟩ : Fin 262144) o : S262144x2.Idx) := by
    obtain ⟨-, -, -, -, -, -, -, -, -, -, -, -, -, -, -, e0, e1⟩ := idx_facts t
    funext a
    apply Fin.ext
    match a with
    | ⟨0, _⟩ => show win0_9.index t (0 : Fin 2) * 4096 + 1 * p.val = 4096 * t.val + p.val; rw [e0]; omega
    | ⟨1, _⟩ => show win0_9.index t (1 : Fin 2) * 2 + 1 * o.val = o.val; rw [e1]; omega
  rw [View.read_apply]
  show out0_9 (iblk m c 0 t) (iblk m c 1 t) (iblk m c 2 t) (iblk m c 3 t) (iblk m c 4 t) (iblk m c 5 t) (iblk m c 6 t)
      (iblk m c 7 t) (iblk m c 8 t) (ix2 p o) = G m c (((cfg0.win 9).blk t).view.emb (ix2 p o))
  rw [hemb]
  exact out_of_blocks (m ((c : Thread nD τ).loc main_arg0)) (lo m c) (hi m c) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))
    (iblk m c 0 t) (iblk m c 1 t) (iblk m c 2 t) (iblk m c 3 t) (iblk m c 4 t) (iblk m c 5 t) (iblk m c 6 t)
    (iblk m c 7 t) (iblk m c 8 t) p o ⟨4096 * t.val + p.val, by omega⟩
    (fun k => blk0 m c t p k _ rfl)
    (fun k => (congrFun (blk1 m c t) (ix1 k)).trans (V_scale m c k))
    (fun k => (congrFun (blk2 m c t) (ix1 k)).trans (V_offset m c k))
    ((blk3 m c t).trans (V_w0 m c)) (blk4 m c t) ((blk5 m c t).trans (V_wh m c)) (blk6 m c t)
    ((blk7 m c t).trans (V_wl m c)) (blk8 m c t)

/-- An index of the result is in point t's block iff each coordinate is in the block's range on its axis. -/
theorem mem_blk (t : Fin cfg0.N) (i : S262144x2.Idx) :
    i ∈ ((cfg0.win 9).blk t).view.set ↔ ∀ a : Fin 2, win0_9.index t a * S4096x2.size a ≤ (i a).val
      ∧ (i a).val < win0_9.index t a * S4096x2.size a + S4096x2.size a := by
  show i ∈ ((View.whole main_v12).slice (win0_9.rect t)).set ↔ _
  rw [View.set_slice_whole, Rect.mem_set_unit]
  exact Iff.rfl

/-- The 64 blocks cover the result: row r is in the block of point r / 4096. -/
theorem cover (i : S262144x2.Idx) : ∃ t : Fin cfg0.N, (cfg0.win 9).flush t = true ∧ i ∈ ((cfg0.win 9).blk t).view.set := by
  have hN : cfg0.N = 64 := N_0
  have hi0 : (i 0).val < 262144 := (i 0).isLt
  have hi1 : (i 1).val < 2 := (i 1).isLt
  have hq : (i 0).val / 4096 < cfg0.N := by rw [hN]; omega
  refine ⟨⟨(i 0).val / 4096, hq⟩, flush0_9 _, ?_⟩
  rw [mem_blk]
  obtain ⟨-, -, -, -, -, -, -, -, -, -, -, -, -, -, -, e0, e1⟩ := idx_facts ⟨(i 0).val / 4096, hq⟩
  intro a
  match a with
  | ⟨0, _⟩ =>
    show win0_9.index ⟨(i 0).val / 4096, hq⟩ (0 : Fin 2) * 4096 ≤ (i 0).val
      ∧ (i 0).val < win0_9.index ⟨(i 0).val / 4096, hq⟩ (0 : Fin 2) * 4096 + 4096
    rw [e0]
    show (i 0).val / 4096 * 4096 ≤ (i 0).val ∧ (i 0).val < (i 0).val / 4096 * 4096 + 4096
    omega
  | ⟨1, _⟩ =>
    show win0_9.index ⟨(i 0).val / 4096, hq⟩ (1 : Fin 2) * 2 ≤ (i 1).val
      ∧ (i 1).val < win0_9.index ⟨(i 0).val / 4096, hq⟩ (1 : Fin 2) * 2 + 2
    rw [e1]
    omega

/-- THE RESULT ARRAY after the run is G. -/
theorem final (c : Dev nD) : (dats m 0 c).arrAt 9 cfg0.N = G m c :=
  (dats m 0 c).arrAt_eq_of_cover 9 (G m c) (fun t _ => flushed_eq m c t) cover

/-- The run, read: the result array at G of the arguments, the arguments unchanged. -/
theorem run : θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.MlpValue

end
-- ==== Proof.RefRow.lean ====
/-
  What the reference computes, one row at a time.

  The reference rescales the four feature columns one by one (a slice of one column, a difference, a product
  with 2, a quotient, a difference with 1), lays the four columns side by side, and applies the seven dense
  layers with host products, each bias broadcast from a vector, the activation spelled
  z * (1 / (1 + exp (-z))).  Read at row p, its result is the network (Cert.Mlp.net) on the four rescaled
  features of row p (Cert.Mlp.featR): one application of the row lemmas per layer, and one case per column for
  the features.
-/
import proofs.«142799_j89146341195842_1_alg».proof.Proof.Gen.ReferenceIdeal.Run
import proofs.«142799_j89146341195842_1_alg».proof.Proof.LibDenseRow

noncomputable section

open scoped BigOperators

namespace Cert.ReferenceIdeal.Rows

open Cert.ReferenceIdeal Idealize.ShloMosaic Idealize.ShloMosaic.ValueIdx Cert.Mlp Cert.Lib.DenseRow

/-- The first layer: a row of features against the [4, 128] weights, plus the bias. -/
theorem first_row (H : FVec Ideal S262144x4 .f32) (w : FVec Ideal S4x128 .f32) (b : FVec Ideal S128 .f32)
    (hb1 : S128.BroadcastsInDim S1x128 ![1]) (hb2 : S1x128.BroadcastsInDim S262144x128 ![0, 1]) (p : Fin 262144)
    (f : Fin 4 → EReal) (hf : row H p = f) :
    row (addf (φ := .f32) (Host.dotGeneral dot_S262144x4_S4x128_S262144x128_1_0_0_1_n_n none H w)
        (broadcastInDim S262144x128 ![0, 1] hb2 (broadcastInDim S1x128 ![1] hb1 b))) p
      = dense f (mat w) (vec b) := by
  refine (dotGeneral_bias_row dot_S262144x4_S4x128_S262144x128_1_0_0_1_n_n rfl rfl (fun _ _ => rfl) (fun _ _ => rfl)
    (fun _ _ => rfl) (fun _ _ => rfl) none H w b hb1 hb2 p).trans ?_
  rw [hf]

/-- A hidden layer: the activation of the previous layer's row against slab i of the stacked weights, plus row i
    of the stacked biases. -/
theorem hid_row (z : FVec Ideal S262144x128 .f32) (Wh : FVec Ideal S5x128x128 .f32) (bh : FVec Ideal S5x128 .f32) (i : Fin 5)
    (offw : Fin 3 → Nat) (hw : offw = ![i.val, 0, 0]) (hsw : S5x128x128.Slices offw S1x128x128)
    (offb : Fin 2 → Nat) (hb : offb = ![i.val, 0]) (hsb : S5x128.Slices offb S1x128)
    (hc : S1x128x128.ShapeCasts S128x128) (hc1 : S1x128.ShapeCasts S128)
    (h1 h2 : S_.BroadcastsInDim S262144x128 ![])
    (hb1 : S128.BroadcastsInDim S1x128 ![1]) (hb2 : S1x128.BroadcastsInDim S262144x128 ![0, 1]) (p : Fin 262144)
    (f : Fin 128 → EReal) (hf : row z p = f) :
    row (addf (φ := .f32) (Host.dotGeneral dot_S262144x128_S128x128_S262144x128_1_0_0_1_n_n none
        (mulf z (Host.divf (broadcastInDim S262144x128 ![] h1 (constant (F := Ideal) S_ .f32 0x3F800000#32))
          (addf (broadcastInDim S262144x128 ![] h2 (constant (F := Ideal) S_ .f32 0x3F800000#32)) (Host.exp (Host.negf z)))))
        (shapeCast S128x128 (extractStridedSlice S1x128x128 offw Wh hsw) hc))
        (broadcastInDim S262144x128 ![0, 1] hb2 (broadcastInDim S1x128 ![1] hb1
          (shapeCast S128 (extractStridedSlice S1x128 offb bh hsb) hc1)))) p
      = hid Wh bh i f := by
  refine (dotGeneral_bias_row dot_S262144x128_S128x128_S262144x128_1_0_0_1_n_n rfl rfl (fun _ _ => rfl) (fun _ _ => rfl)
    (fun _ _ => rfl) (fun _ _ => rfl) none _ _ _ hb1 hb2 p).trans ?_
  rw [hostSwish_row, hf]
  unfold hid
  refine congrArg₂ (dense (act f)) (funext fun k => funext fun j => ?_) (funext fun j => ?_)
  · show shapeCast S128x128 (extractStridedSlice S1x128x128 offw Wh hsw) hc (ix2 k j) = _
    rw [shapeCast_1ab_ab_apply]
    exact slice_slab_apply Wh i offw hw hsw 0 k j
  · show shapeCast S128 (extractStridedSlice S1x128 offb bh hsb) hc1 (ix1 j) = _
    rw [shapeCast_1a_a_apply]
    exact slice_rowslab_apply bh i offb hb hsb 0 j

/-- The last layer: the activation of the previous layer's row against the [128, 2] weights, plus the bias. -/
theorem last_row (z : FVec Ideal S262144x128 .f32) (w : FVec Ideal S128x2 .f32) (b : FVec Ideal S2 .f32)
    (h1 h2 : S_.BroadcastsInDim S262144x128 ![])
    (hb1 : S2.BroadcastsInDim S1x2 ![1]) (hb2 : S1x2.BroadcastsInDim S262144x2 ![0, 1]) (p : Fin 262144)
    (f : Fin 128 → EReal) (hf : row z p = f) :
    row (addf (φ := .f32) (Host.dotGeneral dot_S262144x128_S128x2_S262144x2_1_0_0_1_n_n none
        (mulf z (Host.divf (broadcastInDim S262144x128 ![] h1 (constant (F := Ideal) S_ .f32 0x3F800000#32))
          (addf (broadcastInDim S262144x128 ![] h2 (constant (F := Ideal) S_ .f32 0x3F800000#32)) (Host.exp (Host.negf z))))) w)
        (broadcastInDim S262144x2 ![0, 1] hb2 (broadcastInDim S1x2 ![1] hb1 b))) p
      = dense (act f) (mat w) (vec b) := by
  refine (dotGeneral_bias_row dot_S262144x128_S128x2_S262144x2_1_0_0_1_n_n rfl rfl (fun _ _ => rfl) (fun _ _ => rfl)
    (fun _ _ => rfl) (fun _ _ => rfl) none _ w b hb1 hb2 p).trans ?_
  rw [hostSwish_row, hf]

/-- One rescaled column read at row p: 2 * (x - lo) / d - 1 with the column's entry x, the bound lo and the
    divisor d as the broadcast scalars hold them. -/
theorem column_apply (X : FVec Ideal S262144x4 .f32) (c : Fin 4) (off : Fin 2 → Nat) (hoff : off = ![0, c.val])
    (hs : S262144x4.Slices off S262144x1) (hbc : S_.BroadcastsInDim S262144x1 ![]) (lo d : FVec Ideal S_ .f32) (p : Fin 262144) :
    subf (Host.divf (mulf (broadcastInDim S262144x1 ![] hbc (constant (F := Ideal) S_ .f32 0x40000000#32))
        (subf (extractStridedSlice S262144x1 off X hs) (broadcastInDim S262144x1 ![] hbc lo)))
        (broadcastInDim S262144x1 ![] hbc d)) (broadcastInDim S262144x1 ![] hbc (constant (F := Ideal) S_ .f32 0x3F800000#32))
      (ix2 p (0 : Fin 1))
      = Ideal.div (c2 * (X (ix2 p c) - lo ix0)) (d ix0) - 1 := by
  subst hoff
  show Ideal.div (Ideal.ofBits .f32 0x40000000#32 * (extractStridedSlice S262144x1 ![0, c.val] X hs (ix2 p (0 : Fin 1))
      - broadcastInDim S262144x1 ![] hbc lo (ix2 p (0 : Fin 1)))) (broadcastInDim S262144x1 ![] hbc d (ix2 p (0 : Fin 1)))
      - Ideal.ofBits .f32 0x3F800000#32 = _
  rw [slice2_axis1_apply c.val X hs p 0 c (by show c.val = c.val + 0; omega), broadcastInDim_scalar_apply, broadcastInDim_scalar_apply,
    ofBits_two, Ideal.ofBits_one_f32]

/-- Row p of four [n, 1] columns laid side by side: the four columns' entries at row p. -/
theorem cat4_row (c0 c1 c2 c3 : FVec Ideal S262144x1 .f32)
    (hcat : Shape.Concatenates [S262144x1, S262144x1, S262144x1, S262144x1] S262144x4 1) (p : Fin 262144) :
    row (concatenate S262144x4 1 [⟨S262144x1, c0⟩, ⟨S262144x1, c1⟩, ⟨S262144x1, c2⟩, ⟨S262144x1, c3⟩] hcat) p
      = ![c0 (ix2 p (0 : Fin 1)), c1 (ix2 p (0 : Fin 1)), c2 (ix2 p (0 : Fin 1)), c3 (ix2 p (0 : Fin 1))] := by
  have hi : ∀ (k : Fin 4) (bx : Fin 2), bx.cast (rfl : S262144x1.rank = S262144x4.rank) ≠ (1 : Fin 2) →
      ((ix2 p (0 : Fin 1) : S262144x1.Idx) bx).val = ((ix2 p k : S262144x4.Idx) (bx.cast rfl)).val := fun k bx hbx => by
    match bx with
    | ⟨0, _⟩ => rfl
    | ⟨1, _⟩ => exact absurd rfl hbx
  funext k
  fin_cases k
  · exact concatenate_apply_piece (t := S262144x4) (1 : Fin 2) [⟨S262144x1, c0⟩, ⟨S262144x1, c1⟩, ⟨S262144x1, c2⟩, ⟨S262144x1, c3⟩] hcat
      (ix2 p (0 : Fin 4)) 0 (by show (0 : Nat) < 4; omega) S262144x1 c0 rfl rfl 0 rfl (ix2 p (0 : Fin 1)) (hi 0) rfl
  · exact concatenate_apply_piece (t := S262144x4) (1 : Fin 2) [⟨S262144x1, c0⟩, ⟨S262144x1, c1⟩, ⟨S262144x1, c2⟩, ⟨S262144x1, c3⟩] hcat
      (ix2 p (1 : Fin 4)) 1 (by show (1 : Nat) < 4; omega) S262144x1 c1 rfl rfl 1 rfl (ix2 p (0 : Fin 1)) (hi 1) rfl
  · exact concatenate_apply_piece (t := S262144x4) (1 : Fin 2) [⟨S262144x1, c0⟩, ⟨S262144x1, c1⟩, ⟨S262144x1, c2⟩, ⟨S262144x1, c3⟩] hcat
      (ix2 p (2 : Fin 4)) 2 (by show (2 : Nat) < 4; omega) S262144x1 c2 rfl rfl 2 rfl (ix2 p (0 : Fin 1)) (hi 2) rfl
  · exact concatenate_apply_piece (t := S262144x4) (1 : Fin 2) [⟨S262144x1, c0⟩, ⟨S262144x1, c1⟩, ⟨S262144x1, c2⟩, ⟨S262144x1, c3⟩] hcat
      (ix2 p (3 : Fin 4)) 3 (by show (3 : Nat) < 4; omega) S262144x1 c3 rfl rfl 3 rfl (ix2 p (0 : Fin 1)) (hi 3) rfl

/-- Row p of the four rescaled columns laid side by side. -/
theorem feat_row (X : FVec Ideal S262144x4 .f32) (a b : FVec Ideal S_ .f32)
    (hs0 : S262144x4.Slices ![0, 0] S262144x1) (hs1 : S262144x4.Slices ![0, 1] S262144x1)
    (hs2 : S262144x4.Slices ![0, 2] S262144x1) (hs3 : S262144x4.Slices ![0, 3] S262144x1)
    (hbc : S_.BroadcastsInDim S262144x1 ![])
    (hcat : Shape.Concatenates [S262144x1, S262144x1, S262144x1, S262144x1] S262144x4 1) (p : Fin 262144) :
    row (concatenate S262144x4 1
      [⟨S262144x1, subf (Host.divf (mulf (broadcastInDim S262144x1 ![] hbc (constant (F := Ideal) S_ .f32 0x40000000#32))
          (subf (extractStridedSlice S262144x1 ![0, 0] X hs0) (broadcastInDim S262144x1 ![] hbc (constant (F := Ideal) S_ .f32 0xBF800000#32))))
          (broadcastInDim S262144x1 ![] hbc (constant (F := Ideal) S_ .f32 0x40000000#32)))
          (broadcastInDim S262144x1 ![] hbc (constant (F := Ideal) S_ .f32 0x3F800000#32))⟩,
       ⟨S262144x1, subf (Host.divf (mulf (broadcastInDim S262144x1 ![] hbc (constant (F := Ideal) S_ .f32 0x40000000#32))
          (subf (extractStridedSlice S262144x1 ![0, 1] X hs1) (broadcastInDim S262144x1 ![] hbc (constant (F := Ideal) S_ .f32 0xBF800000#32))))
          (broadcastInDim S262144x1 ![] hbc (constant (F := Ideal) S_ .f32 0x40000000#32)))
          (broadcastInDim S262144x1 ![] hbc (constant (F := Ideal) S_ .f32 0x3F800000#32))⟩,
       ⟨S262144x1, subf (Host.divf (mulf (broadcastInDim S262144x1 ![] hbc (constant (F := Ideal) S_ .f32 0x40000000#32))
          (subf (extractStridedSlice S262144x1 ![0, 2] X hs2) (broadcastInDim S262144x1 ![] hbc (constant (F := Ideal) S_ .f32 0x00000000#32))))
          (broadcastInDim S262144x1 ![] hbc (constant (F := Ideal) S_ .f32 0x3F800000#32)))
          (broadcastInDim S262144x1 ![] hbc (constant (F := Ideal) S_ .f32 0x3F800000#32))⟩,
       ⟨S262144x1, subf (Host.divf (mulf (broadcastInDim S262144x1 ![] hbc (constant (F := Ideal) S_ .f32 0x40000000#32))
          (subf (extractStridedSlice S262144x1 ![0, 3] X hs3) (broadcastInDim S262144x1 ![] hbc a)))
          (broadcastInDim S262144x1 ![] hbc (subf b a)))
          (broadcastInDim S262144x1 ![] hbc (constant (F := Ideal) S_ .f32 0x3F800000#32))⟩] hcat) p
      = featR (row X p) (a ix0) (b ix0) := by
  refine (cat4_row _ _ _ _ hcat p).trans ?_
  funext k
  fin_cases k
  · refine (column_apply X 0 _ rfl hs0 hbc _ _ p).trans ?_
    show Ideal.div (c2 * (X (ix2 p 0) - Ideal.ofBits .f32 0xBF800000#32)) (Ideal.ofBits .f32 0x40000000#32) - 1 = _
    rw [ofBits_neg_one, ofBits_two]
    rfl
  · refine (column_apply X 1 _ rfl hs1 hbc _ _ p).trans ?_
    show Ideal.div (c2 * (X (ix2 p 1) - Ideal.ofBits .f32 0xBF800000#32)) (Ideal.ofBits .f32 0x40000000#32) - 1 = _
    rw [ofBits_neg_one, ofBits_two]
    rfl
  · refine (column_apply X 2 _ rfl hs2 hbc _ _ p).trans ?_
    show Ideal.div (c2 * (X (ix2 p 2) - Ideal.ofBits .f32 0x00000000#32)) (Ideal.ofBits .f32 0x3F800000#32) - 1 = _
    rw [Ideal.ofBits_zero_f32, Ideal.ofBits_one_f32]
    rfl
  · refine (column_apply X 3 _ rfl hs3 hbc _ _ p).trans ?_
    rfl

/-! ## The run's named intermediate results, row by row -/

section Run
open Cert.ReferenceIdeal.Value Idealize.ShloMosaic.StableHlo Cert.ReferenceIdeal.Facts₀

variable (V0 : Valuation τ sig (Elt Ideal)) (p : Fin 262144)

/-- Row p's rescaled features, from the launch contents. -/
def feats : Fin 4 → EReal :=
  featR (row (V0 (Proc.devRef .tc main_arg0)) p) (V0 (Proc.devRef .tc main_arg1) ix0) (V0 (Proc.devRef .tc main_arg2) ix0)

/-- The layers' rows, from the launch contents. -/
def pre0 : Fin 128 → EReal := dense (feats V0 p) (mat (V0 (Proc.devRef .tc main_arg3))) (vec (V0 (Proc.devRef .tc main_arg4)))
def pre (i : Fin 5) (z : Fin 128 → EReal) : Fin 128 → EReal := hid (V0 (Proc.devRef .tc main_arg5)) (V0 (Proc.devRef .tc main_arg6)) i z

theorem res41_row : row (res_main_v41 V0) p = pre0 V0 p := by
  unfold res_main_v41 pre0 feats
  exact first_row _ _ _ _ _ p _ (feat_row _ _ _ _ _ _ _ _ _ p)

theorem res56_row : row (res_main_v56 V0) p = pre V0 0 (pre0 V0 p) := by
  unfold res_main_v56 pre
  exact hid_row _ _ _ 0 _ rfl _ _ rfl _ _ _ _ _ _ _ p _ (res41_row V0 p)

theorem res71_row : row (res_main_v71 V0) p = pre V0 1 (pre V0 0 (pre0 V0 p)) := by
  unfold res_main_v71
  exact hid_row _ _ _ 1 _ rfl _ _ rfl _ _ _ _ _ _ _ p _ (res56_row V0 p)

theorem res86_row : row (res_main_v86 V0) p = pre V0 2 (pre V0 1 (pre V0 0 (pre0 V0 p))) := by
  unfold res_main_v86
  exact hid_row _ _ _ 2 _ rfl _ _ rfl _ _ _ _ _ _ _ p _ (res71_row V0 p)

theorem res101_row : row (res_main_v101 V0) p = pre V0 3 (pre V0 2 (pre V0 1 (pre V0 0 (pre0 V0 p)))) := by
  unfold res_main_v101
  exact hid_row _ _ _ 3 _ rfl _ _ rfl _ _ _ _ _ _ _ p _ (res86_row V0 p)

theorem res116_row : row (res_main_v116 V0) p = pre V0 4 (pre V0 3 (pre V0 2 (pre V0 1 (pre V0 0 (pre0 V0 p))))) := by
  unfold res_main_v116
  exact hid_row _ _ _ 4 _ rfl _ _ rfl _ _ _ _ _ _ _ p _ (res101_row V0 p)

/-- The reference's result, as the run states it, at row p: the network on row p's rescaled features. -/
theorem result_row :
    row (addf (φ := .f32) (Host.dotGeneral (φ₁ := .f32) (φ₂ := .f32) dot_S262144x128_S128x2_S262144x2_1_0_0_1_n_n none (mulf (res_main_v116 V0) (Host.divf (broadcastInDim S262144x128 ![] bcast_S_S262144x128 (constant (F := Ideal) S_ .f32 0x3F800000#32)) (addf (broadcastInDim S262144x128 ![] bcast_S_S262144x128 (constant (F := Ideal) S_ .f32 0x3F800000#32)) (Host.exp (Host.negf (res_main_v116 V0)))))) (V0 (Proc.devRef .tc main_arg7) : FVec Ideal S128x2 .f32)) (broadcastInDim S262144x2 ![0, 1] bcast_S1x2_S262144x2_0_1 (broadcastInDim S1x2 ![1] bcast_S2_S1x2_1 (V0 (Proc.devRef .tc main_arg8) : FVec Ideal S2 .f32)))) p
      = net (feats V0 p) (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8)) := by
  unfold net
  exact last_row _ _ _ _ _ _ _ p _ (res116_row V0 p)

end Run

end Cert.ReferenceIdeal.Rows

end
-- ==== Proof.RefValue.lean ====
/-
  The reference's result array as one function of its argument arrays: row r is the network on the four
  rescaled features of row r, each column rescaled by its own quotient (Cert.Mlp.featR).
-/
import proofs.«142799_j89146341195842_1_alg».proof.Proof.Gen.ReferenceIdeal.Run
import proofs.«142799_j89146341195842_1_alg».proof.Proof.RefRow

noncomputable section

open Idealize.ShloMosaic Idealize.ShloMosaic.TcCoe Idealize.SL.Sem

namespace Cert.ReferenceIdeal.MlpValue

open Cert.ReferenceIdeal Cert.ReferenceIdeal.Gen Idealize.ShloMosaic.ValueIdx Idealize.ShloMosaic.StableHlo Cert.Mlp

variable (m : (ℓ : Loc nD τ sig) → Buf (Elt Ideal) ℓ) (ρ : Dev nD → PrngReg)

/-- The result array: row r is the network on row r of the features, each column rescaled by its own quotient. -/
def G (c : Dev nD) : S262144x2.Idx → EReal := fun i =>
  net (featR (row (m ((c : Thread nD τ).loc main_arg0) : S262144x4.Idx → EReal) (i 0))
      ((m ((c : Thread nD τ).loc main_arg1) : S_.Idx → EReal) ix0) ((m ((c : Thread nD τ).loc main_arg2) : S_.Idx → EReal) ix0))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 1)

/-- The run, read: the result array at G of the arguments, the arguments unchanged. -/
theorem run : θ_run defs (onTc (τ := τ) (main (F := Ideal))) ⟨m, fun _ => 0, ρ⟩ fun r => ∀ c : Dev nD,
      r.2.mem ((c.tc : Thread nD τ).loc main_v127) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (funext fun i => by
      obtain ⟨p, o, rfl⟩ : ∃ (p : Fin 262144) (o : Fin 2), i = ix2 p o := ⟨i 0, i 1, eq_ix2 i⟩
      exact congrFun (Cert.ReferenceIdeal.Rows.result_row (launchContents m c) p) o), (h c).2⟩)
    (Cert.ReferenceIdeal.Value.run (F := Ideal) m ρ)

end Cert.ReferenceIdeal.MlpValue

end
-- ==== Proof.PreReal.lean ====
/-
  What the precondition gives: the features and the two bounds are real numbers, and the bounds differ.

  The precondition is a conjunction, one bit: for every float input, "every entry's absolute value is below
  +infinity", and last "the upper bound is not the lower bound".  An extended real whose absolute value
  max x (-x) is below the top element is a real number.  Only the three inputs the rescaling reads are opened
  here; the weights and biases enter both programs through the same sums and products, which need no finiteness.
-/
import proofs.«142799_j89146341195842_1_alg».proof.Pre_finite_inputs
import proofs.«142799_j89146341195842_1_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.PreReal

open Idealize.ShloMosaic Idealize.ShloMosaic.ValueIdx Cert.Pre_finite_inputs

instance : Subsingleton S_.Idx := ⟨fun _ _ => funext fun d => d.elim0⟩

/-- The word 0x7F800000 denotes the top element. -/
theorem ofBits_inf : Ideal.ofBits .f32 0x7F800000#32 = ⊤ := by
  simp [Ideal.ofBits, Ideal.ieee]

/-- A comparison bit that is 1 is a true comparison: "less than". -/
theorem lt_of_cmp_olt {x y : EReal} (h : Ideal.cmp .olt x y = 1#1) : x < y := by
  have e : Ideal.cmp .olt x y = BitVec.ofBool (decide (x < y)) := rfl
  rw [e] at h
  by_contra hn
  rw [decide_eq_false hn] at h
  exact absurd h (by decide)

/-- "Not equal". -/
theorem ne_of_cmp_une {x y : EReal} (h : Ideal.cmp .une x y = 1#1) : x ≠ y := by
  have e : Ideal.cmp .une x y = BitVec.ofBool (decide (x ≠ y)) := rfl
  rw [e] at h
  intro hxy
  rw [decide_eq_false (not_not.mpr hxy)] at h
  exact absurd h (by decide)

/-- An extended real whose absolute value is below +infinity is a real number. -/
theorem real_of_abs_lt (x : EReal) (h : Ideal.cmp .olt (max x (-x)) (Ideal.ofBits .f32 0x7F800000#32) = 1#1) :
    ∃ r : ℝ, x = (r : EReal) := by
  have hlt := lt_of_cmp_olt h
  rw [ofBits_inf] at hlt
  induction x using EReal.rec with
  | bot => exact absurd hlt (by simp)
  | top => exact absurd hlt (by simp)
  | coe r => exact ⟨r, rfl⟩

variable [Cert.Pre_finite_inputs.Facts]

/-- The precondition, opened at the three inputs the rescaling reads. -/
theorem opened (X : FVec Ideal S262144x4 .f32) (a b : FVec Ideal S_ .f32) (W0 : FVec Ideal S4x128 .f32) (b0 : FVec Ideal S128 .f32)
    (Wh : FVec Ideal S5x128x128 .f32) (bh : FVec Ideal S5x128 .f32) (WL : FVec Ideal S128x2 .f32) (bL : FVec Ideal S2 .f32)
    (h : Cert.Pre_finite_inputs.fn (F := Ideal) X a b W0 b0 Wh bh WL bL = fun _ => 1#1) :
    (∀ i, ∃ r : ℝ, X i = (r : EReal)) ∧ (∃ r : ℝ, a ix0 = (r : EReal)) ∧ (∃ r : ℝ, b ix0 = (r : EReal)) ∧ b ix0 ≠ a ix0 := by
  have h43 := congrFun h ix0
  obtain ⟨h41, hne⟩ := IntOp.andi_eq_one.mp h43
  obtain ⟨h36, -⟩ := IntOp.andi_eq_one.mp h41
  obtain ⟨h31, -⟩ := IntOp.andi_eq_one.mp h36
  obtain ⟨h26, -⟩ := IntOp.andi_eq_one.mp h31
  obtain ⟨h21, -⟩ := IntOp.andi_eq_one.mp h26
  obtain ⟨h16, -⟩ := IntOp.andi_eq_one.mp h21
  obtain ⟨h11, -⟩ := IntOp.andi_eq_one.mp h16
  obtain ⟨h7, h10⟩ := IntOp.andi_eq_one.mp h11
  obtain ⟨h3, h6⟩ := IntOp.andi_eq_one.mp h7
  refine ⟨fun i => ?_, ?_, ?_, ?_⟩
  · exact real_of_abs_lt (X i) (Host.reduce_andi_all _ _ _ _ ix0 h3 i)
  · exact real_of_abs_lt (a ix0) (Host.reduce_andi_all _ _ _ _ ix0 h6 ix0)
  · exact real_of_abs_lt (b ix0) (Host.reduce_andi_all _ _ _ _ ix0 h10 ix0)
  · exact ne_of_cmp_une hne

end Cert.PreReal

end
-- ==== Proof.lean ====
/-
  The certificate: a fused multi-layer perceptron kernel against its layer-by-layer reference, on the extended reals.

  Both programs map each row of four raw features to two outputs: the features are rescaled to [-1, 1] column by
  column, then pass through a dense layer of width 128 with the swish activation z * logistic z, five more such
  layers, and a dense layer of width 2.  The kernel works on blocks of 4096 rows with every weight resident; the
  reference works on all 262144 rows at once.  At the ideal reading a change of float format is the identity, a
  matrix product into a zero accumulator and a host product are the same sum, and logistic z is 1 / (1 + exp (-z)),
  so from the rescaled features on the two programs compute the same function, whatever the inputs are (the row
  lemmas of KernelRow and RefRow; the blocks put together in KernelValue).

  The rescaling is where they differ.  The reference computes 2 * (x - lo) / (hi - lo) - 1 per column; the
  kernel multiplies by a scale 2 / (hi - lo) and adds an offset -2 * lo / (hi - lo) - 1 computed beforehand.
  The fourth column's bounds are inputs.  The two agree when the features and the bounds are real numbers and the
  bounds differ (Cert.Mlp.featR_eq_featK), which is what the precondition says (PreReal); with equal bounds the
  reference divides by zero and the two programs give different infinities.

  The frames are the generated ones; the idealization rewrote nothing, so there is nothing to preserve.
-/
import proofs.«142799_j89146341195842_1_alg».proof.Defs
import proofs.«142799_j89146341195842_1_alg».proof.Proof.Gen.Kernel
import proofs.«142799_j89146341195842_1_alg».proof.Proof.Gen.Kernel.Skeleton
import proofs.«142799_j89146341195842_1_alg».proof.Proof.Gen.Kernel.Launch
import proofs.«142799_j89146341195842_1_alg».proof.Proof.Gen.Kernel.Points
import proofs.«142799_j89146341195842_1_alg».proof.Proof.Gen.Kernel.Frame
import proofs.«142799_j89146341195842_1_alg».proof.Proof.Gen.KernelIdeal
import proofs.«142799_j89146341195842_1_alg».proof.Proof.Gen.KernelIdeal.Skeleton
import proofs.«142799_j89146341195842_1_alg».proof.Proof.Gen.KernelIdeal.Launch
import proofs.«142799_j89146341195842_1_alg».proof.Proof.Gen.KernelIdeal.Points
import proofs.«142799_j89146341195842_1_alg».proof.Proof.Gen.KernelIdeal.Frame
import proofs.«142799_j89146341195842_1_alg».proof.Proof.Gen.ReferenceIdeal
import proofs.«142799_j89146341195842_1_alg».proof.Proof.Gen.Pre_finite_inputs
import proofs.«142799_j89146341195842_1_alg».proof.Proof.Gen.KernelIdeal.Value
import proofs.«142799_j89146341195842_1_alg».proof.Proof.Gen.ReferenceIdeal.Run
import proofs.«142799_j89146341195842_1_alg».proof.Proof.KernelValue
import proofs.«142799_j89146341195842_1_alg».proof.Proof.RefValue
import proofs.«142799_j89146341195842_1_alg».proof.Proof.PreReal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two result arrays are one function of the arguments: row by row the same network, on features that the
    two rescalings make equal because the features and the bounds are real and the bounds differ. -/
theorem algebraic : Cert.algebraic_KernelIdeal_ReferenceIdeal := by
  intro m ρ m' ρ' hpre hagree
  refine ⟨fun c => Cert.KernelIdeal.MlpValue.G m c, Cert.KernelIdeal.MlpValue.run m ρ, ?_⟩
  refine (θ_run Cert.ReferenceIdeal.defs _ _).mono (fun _ h c => ⟨(h c).1.trans ?_, (h c).2⟩)
    (Cert.ReferenceIdeal.MlpValue.run m' ρ')
  obtain ⟨h0, h1, h2, h3, h4, h5, h6, h7, h8⟩ := hagree c
  obtain ⟨hX, ha, hb, hne⟩ := Cert.PreReal.opened _ _ _ _ _ _ _ _ _ (hpre c)
  unfold Cert.ReferenceIdeal.MlpValue.G Cert.KernelIdeal.MlpValue.G
  funext i
  rw [h0, h1, h2, h3, h4, h5, h6, h7, h8]
  dsimp only
  refine congrArg (fun f => Cert.Mlp.net f _ _ _ _ _ _ _) ?_
  exact Cert.Mlp.featR_eq_featK _ _ _ (fun k => hX _) ha hb hne

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
